-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_cst)) (v3 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_cst_0) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S513x512 : Shape := ⟨2, ![513, 512]⟩
abbrev S513 : Shape := ⟨1, ![513]⟩
abbrev S256x513 : Shape := ⟨2, ![256, 513]⟩
abbrev S256 : Shape := ⟨1, ![256]⟩
abbrev S257x256 : Shape := ⟨2, ![257, 256]⟩
abbrev S257 : Shape := ⟨1, ![257]⟩
abbrev S64x257 : Shape := ⟨2, ![64, 257]⟩
abbrev S64 : Shape := ⟨1, ![64]⟩
abbrev S64x512 : Shape := ⟨2, ![64, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S513x512 : S_.BroadcastsInDim S513x512 (![] : Fin 0 → Fin S513x512.rank)
  reducesTo_S513x512_S_d0_1 : S513x512.ReducesTo [0, 1] S_
  bcast_S_S513 : S_.BroadcastsInDim S513 (![] : Fin 0 → Fin S513.rank)
  reducesTo_S513_S_d0 : S513.ReducesTo [0] S_
  bcast_S_S256x513 : S_.BroadcastsInDim S256x513 (![] : Fin 0 → Fin S256x513.rank)
  reducesTo_S256x513_S_d0_1 : S256x513.ReducesTo [0, 1] S_
  bcast_S_S256 : S_.BroadcastsInDim S256 (![] : Fin 0 → Fin S256.rank)
  reducesTo_S256_S_d0 : S256.ReducesTo [0] S_
  bcast_S_S257x256 : S_.BroadcastsInDim S257x256 (![] : Fin 0 → Fin S257x256.rank)
  reducesTo_S257x256_S_d0_1 : S257x256.ReducesTo [0, 1] S_
  bcast_S_S257 : S_.BroadcastsInDim S257 (![] : Fin 0 → Fin S257.rank)
  reducesTo_S257_S_d0 : S257.ReducesTo [0] S_
  bcast_S_S64x257 : S_.BroadcastsInDim S64x257 (![] : Fin 0 → Fin S64x257.rank)
  reducesTo_S64x257_S_d0_1 : S64x257.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S64x257 .f32) (main_arg13 : FVec F S64 .f32) (main_arg14 : FVec F S64x512 .f32) (main_arg15 : FVec F S64 .f32) (main_v48 : IVec S_ 1) (main_v49 : FVec F S257 .f32) (main_v50 : FVec F S257 .f32) : IVec S_ 1 :=
  let main_v51 : IVec S257 1 := cmpf .olt main_v49 main_v50
  let main_c_19 : IVec S_ 1 := constantI S_ 1 1#1
  let main_v52 : IVec S_ 1 := (fun x v => Host.reduce IntOp.andi x v reducesTo_S257_S_d0 h_S_) main_v51 main_c_19
  let main_v53 : IVec S_ 1 := andi main_v48 main_v52
  let main_v54 : FVec F S64x257 .f32 := Host.absf main_arg12
  let main_cst_20 : FVec F S_ .f32 := constant S_ .f32 0x7F800000#32
  let main_v55 : FVec F S64x257 .f32 := broadcastInDim S64x257 ![] bcast_S_S64x257 main_cst_20
  let main_v56 : IVec S64x257 1 := cmpf .olt main_v54 main_v55
  let main_c_21 : IVec S_ 1 := constantI S_ 1 1#1
  let main_v57 : IVec S_ 1 := (fun x v => Host.reduce IntOp.andi x v reducesTo_S64x257_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x512 .f32 := Host.absf main_arg14
  let main_cst_24 : FVec F S_ .f32 := constant S_ .f32 0x7F800000#32
  let main_v65 : FVec F S64x512 .f32 := broadcastInDim S64x512 ![] bcast_S_S64x512 main_cst_24
  let main_v66 : IVec S64x512 1 := cmpf .olt main_v64 main_v65
  let main_c_25 : IVec S_ 1 := constantI S_ 1 1#1
  let main_v67 : IVec S_ 1 := (fun x v => Host.reduce IntOp.andi x v reducesTo_S64x512_S_d0_1 h_S_) main_v66 main_c_25
  fn_part4 (F := F) main_arg15 main_v63 main_v67

def fn_part2 {F : FTy → Type} [FloatOps F] (main_arg8 : FVec F S256x513 .f32) (main_arg9 : FVec F S256 .f32) (main_arg10 : FVec F S257x256 .f32) (main_arg11 : FVec F S257 .f32) (main_arg12 : FVec F S64x257 .f32) (main_arg13 : FVec F S64 .f32) (main_arg14 : FVec F S64x512 .f32) (main_arg15 : FVec F S64 .f32) (main_v33 : IVec S_ 1) : IVec S_ 1 :=
  let main_v34 : FVec F S256x513 .f32 := Host.absf main_arg8
  let main_cst_12 : FVec F S_ .f32 := constant S_ .f32 0x7F800000#32
  let main_v35 : FVec F S256x513 .f32 := broadcastInDim S256x513 ![] bcast_S_S256x513 main_cst_12
  let main_v36 : IVec S256x513 1 := cmpf .olt main_v34 main_v35
  let main_c_13 : IVec S_ 1 := constantI S_ 1 1#1
  let main_v37 : IVec S_ 1 := (fun x v => Host.reduce IntOp.andi x v reducesTo_S256x513_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S257x256 .f32 := Host.absf main_arg10
  let main_cst_16 : FVec F S_ .f32 := constant S_ .f32 0x7F800000#32
  let main_v45 : FVec F S257x256 .f32 := broadcastInDim S257x256 ![] bcast_S_S257x256 main_cst_16
  let main_v46 : IVec S257x256 1 := cmpf .olt main_v44 main_v45
  let main_c_17 : IVec S_ 1 := constantI S_ 1 1#1
  let main_v47 : IVec S_ 1 := (fun x v => Host.reduce IntOp.andi x v reducesTo_S257x256_S_d0_1 h_S_) main_v46 main_c_17
  let main_v48 : IVec S_ 1 := andi main_v43 main_v47
  let main_v49 : FVec F S257 .f32 := Host.absf main_arg11
  let main_cst_18 : FVec F S_ .f32 := constant S_ .f32 0x7F800000#32
  let main_v50 : FVec F S257 .f32 := broadcastInDim S257 ![] bcast_S_S257 main_cst_18
  fn_part3 (F := F) main_arg12 main_arg13 main_arg14 main_arg15 main_v48 main_v49 main_v50

def fn_part1 {F : FTy → Type} [FloatOps F] (main_arg5 : FVec F S256 .f32) (main_arg6 : FVec F S513x512 .f32) (main_arg7 : FVec F S513 .f32) (main_arg8 : FVec F S256x513 .f32) (main_arg9 : FVec F S256 .f32) (main_arg10 : FVec F S257x256 .f32) (main_arg11 : FVec F S257 .f32) (main_arg12 : FVec F S64x257 .f32) (main_arg13 : FVec F S64 .f32) (main_arg14 : FVec F S64x512 .f32) (main_arg15 : FVec F S64 .f32) (main_v13 : IVec S_ 1) (main_v16 : IVec S256x513 1) : IVec S_ 1 :=
  let main_c_5 : IVec S_ 1 := constantI S_ 1 1#1
  let main_v17 : IVec S_ 1 := (fun x v => Host.reduce IntOp.andi x v reducesTo_S256x513_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S513x512 .f32 := Host.absf main_arg6
  let main_cst_8 : FVec F S_ .f32 := constant S_ .f32 0x7F800000#32
  let main_v25 : FVec F S513x512 .f32 := broadcastInDim S513x512 ![] bcast_S_S513x512 main_cst_8
  let main_v26 : IVec S513x512 1 := cmpf .olt main_v24 main_v25
  let main_c_9 : IVec S_ 1 := constantI S_ 1 1#1
  let main_v27 : IVec S_ 1 := (fun x v => Host.reduce IntOp.andi x v reducesTo_S513x512_S_d0_1 h_S_) main_v26 main_c_9
  let main_v28 : IVec S_ 1 := andi main_v23 main_v27
  let main_v29 : FVec F S513 .f32 := Host.absf main_arg7
  let main_cst_10 : FVec F S_ .f32 := constant S_ .f32 0x7F800000#32
  let main_v30 : FVec F S513 .f32 := broadcastInDim S513 ![] bcast_S_S513 main_cst_10
  let main_v31 : IVec S513 1 := cmpf .olt main_v29 main_v30
  let main_c_11 : IVec S_ 1 := constantI S_ 1 1#1
  let main_v32 : IVec S_ 1 := (fun x v => Host.reduce IntOp.andi x v reducesTo_S513_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S131072x512 .f32) (main_arg1 : IVec S131072 32) (main_arg2 : FVec F S513x512 .f32) (main_arg3 : FVec F S513 .f32) (main_arg4 : FVec F S256x513 .f32) (main_arg5 : FVec F S256 .f32) (main_arg6 : FVec F S513x512 .f32) (main_arg7 : FVec F S513 .f32) (main_arg8 : FVec F S256x513 .f32) (main_arg9 : FVec F S256 .f32) (main_arg10 : FVec F S257x256 .f32) (main_arg11 : FVec F S257 .f32) (main_arg12 : FVec F S64x257 .f32) (main_arg13 : FVec F S64 .f32) (main_arg14 : FVec F S64x512 .f32) (main_arg15 : FVec F S64 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S513x512 .f32 := Host.absf main_arg2
  let main_cst_0 : FVec F S_ .f32 := constant S_ .f32 0x7F800000#32
  let main_v5 : FVec F S513x512 .f32 := broadcastInDim S513x512 ![] bcast_S_S513x512 main_cst_0
  let main_v6 : IVec S513x512 1 := cmpf .olt main_v4 main_v5
  let main_c_1 : IVec S_ 1 := constantI S_ 1 1#1
  let main_v7 : IVec S_ 1 := (fun x v => Host.reduce IntOp.andi x v reducesTo_S513x512_S_d0_1 h_S_) main_v6 main_c_1
  let main_v8 : IVec S_ 1 := andi main_v3 main_v7
  let main_v9 : FVec F S513 .f32 := Host.absf main_arg3
  let main_cst_2 : FVec F S_ .f32 := constant S_ .f32 0x7F800000#32
  let main_v10 : FVec F S513 .f32 := broadcastInDim S513 ![] bcast_S_S513 main_cst_2
  let main_v11 : IVec S513 1 := cmpf .olt main_v9 main_v10
  let main_c_3 : IVec S_ 1 := constantI S_ 1 1#1
  let main_v12 : IVec S_ 1 := (fun x v => Host.reduce IntOp.andi x v reducesTo_S513_S_d0 h_S_) main_v11 main_c_3
  let main_v13 : IVec S_ 1 := andi main_v8 main_v12
  let main_v14 : FVec F S256x513 .f32 := Host.absf main_arg4
  let main_cst_4 : FVec F S_ .f32 := constant S_ .f32 0x7F800000#32
  let main_v15 : FVec F S256x513 .f32 := broadcastInDim S256x513 ![] bcast_S_S256x513 main_cst_4
  let main_v16 : IVec S256x513 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S131072x512 : Shape := ⟨2, ![131072, 512]⟩
abbrev S131072 : Shape := ⟨1, ![131072]⟩
abbrev S513x512 : Shape := ⟨2, ![513, 512]⟩
abbrev S513 : Shape := ⟨1, ![513]⟩
abbrev S256x513 : Shape := ⟨2, ![256, 513]⟩
abbrev S256 : Shape := ⟨1, ![256]⟩
abbrev S257x256 : Shape := ⟨2, ![257, 256]⟩
abbrev S257 : Shape := ⟨1, ![257]⟩
abbrev S64x257 : Shape := ⟨2, ![64, 257]⟩
abbrev S64 : Shape := ⟨1, ![64]⟩
abbrev S64x512 : Shape := ⟨2, ![64, 512]⟩
abbrev S131072x1 : Shape := ⟨2, ![131072, 1]⟩
abbrev S512x513 : Shape := ⟨2, ![512, 513]⟩
abbrev S513x256 : Shape := ⟨2, ![513, 256]⟩
abbrev S256x257 : Shape := ⟨2, ![256, 257]⟩
abbrev S257x64 : Shape := ⟨2, ![257, 64]⟩
abbrev S64x256 : Shape := ⟨2, ![64, 256]⟩
abbrev S256x64 : Shape := ⟨2, ![256, 64]⟩
abbrev S131072x64 : Shape := ⟨2, ![131072, 64]⟩
abbrev S2048x512 : Shape := ⟨2, ![2048, 512]⟩
abbrev S2048x1 : Shape := ⟨2, ![2048, 1]⟩
abbrev S2048x64 : Shape := ⟨2, ![2048, 64]⟩
abbrev S512x512 : Shape := ⟨2, ![512, 512]⟩
abbrev S1x513 : Shape := ⟨2, ![1, 513]⟩
abbrev S512x256 : Shape := ⟨2, ![512, 256]⟩
abbrev S1x256 : Shape := ⟨2, ![1, 256]⟩
abbrev S512x64 : Shape := ⟨2, ![512, 64]⟩
abbrev S1x64 : Shape := ⟨2, ![1, 64]⟩
abbrev S512x1 : Shape := ⟨2, ![512, 1]⟩
abbrev S512 : Shape := ⟨1, ![512]⟩
abbrev S512x257 : Shape := ⟨2, ![512, 257]⟩
abbrev S1x257 : Shape := ⟨2, ![1, 257]⟩
abbrev S_ : Shape := ⟨0, ![]⟩

abbrev nBuf : Space → Nat
  | .hbm => 38
  | .vmem => 23
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S513x512, .f32⟩
  | .hbm, ⟨3, _⟩ => ⟨S513, .f32⟩
  | .hbm, ⟨4, _⟩ => ⟨S256x513, .f32⟩
  | .hbm, ⟨5, _⟩ => ⟨S256, .f32⟩
  | .hbm, ⟨6, _⟩ => ⟨S513x512, .f32⟩
  | .hbm, ⟨7, _⟩ => ⟨S513, .f32⟩
  | .hbm, ⟨8, _⟩ => ⟨S256x513, .f32⟩
  | .hbm, ⟨9, _⟩ => ⟨S256, .f32⟩
  | .hbm, ⟨10, _⟩ => ⟨S257x256, .f32⟩
  | .hbm, ⟨11, _⟩ => ⟨S257, .f32⟩
  | .hbm, ⟨12, _⟩ => ⟨S64x257, .f32⟩
  | .hbm, ⟨13, _⟩ => ⟨S64, .f32⟩
  | .hbm, ⟨14, _⟩ => ⟨S64x512, .f32⟩
  | .hbm, ⟨15, _⟩ => ⟨S64, .f32⟩
  | .hbm, ⟨16, _⟩ => ⟨S131072x1, .i32⟩
  | .hbm, ⟨17, _⟩ => ⟨S512x513, .f32⟩
  | .hbm, ⟨18, _⟩ => ⟨S512x513, .bf16⟩
  | .hbm, ⟨19, _⟩ => ⟨S513x256, .f32⟩
  | .hbm, ⟨20, _⟩ => ⟨S513x256, .bf16⟩
  | .hbm, ⟨21, _⟩ => ⟨S512x513, .f32⟩
  | .hbm, ⟨22, _⟩ => ⟨S512x513, .bf16⟩
  | .hbm, ⟨23, _⟩ => ⟨S513x256, .f32⟩
  | .hbm, ⟨24, _⟩ => ⟨S513x256, .bf16⟩
  | .hbm, ⟨25, _⟩ => ⟨S256x257, .f32⟩
  | .hbm, ⟨26, _⟩ => ⟨S256x257, .bf16⟩
  | .hbm, ⟨27, _⟩ => ⟨S257x64, .f32⟩
  | .hbm, ⟨28, _⟩ => ⟨S257x64, .bf16⟩
  | .hbm, ⟨29, _⟩ => ⟨S64x256, .f32⟩
  | .hbm, ⟨30, _⟩ => ⟨S64x256, .f32⟩
  | .hbm, ⟨31, _⟩ => ⟨S256x64, .f32⟩
  | .hbm, ⟨32, _⟩ => ⟨S256x64, .bf16⟩
  | .hbm, ⟨33, _⟩ => ⟨S256x64, .f32⟩
  | .hbm, ⟨34, _⟩ => ⟨S256x64, .bf16⟩
  | .hbm, ⟨35, _⟩ => ⟨S131072x1, .f32⟩
  | .hbm, ⟨36, _⟩ => ⟨S131072x64, .f32⟩
  | .hbm, ⟨37, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S512x513, .bf16⟩
  | .local _ .vmem, ⟨5, _⟩ => ⟨S513, .f32⟩
  | .local _ .vmem, ⟨6, _⟩ => ⟨S513x256, .bf16⟩
  | .local _ .vmem, ⟨7, _⟩ => ⟨S256, .f32⟩
  | .local _ .vmem, ⟨8, _⟩ => ⟨S512x513, .bf16⟩
  | .local _ .vmem, ⟨9, _⟩ => ⟨S513, .f32⟩
  | .local _ .vmem, ⟨10, _⟩ => ⟨S513x256, .bf16⟩
  | .local _ .vmem, ⟨11, _⟩ => ⟨S256, .f32⟩
  | .local _ .vmem, ⟨12, _⟩ => ⟨S256x257, .bf16⟩
  | .local _ .vmem, ⟨13, _⟩ => ⟨S257, .f32⟩
  | .local _ .vmem, ⟨14, _⟩ => ⟨S257x64, .bf16⟩
  | .local _ .vmem, ⟨15, _⟩ => ⟨S64, .f32⟩
  | .local _ .vmem, ⟨16, _⟩ => ⟨S256x64, .bf16⟩
  | .local _ .vmem, ⟨17, _⟩ => ⟨S256x64, .bf16⟩
  | .local _ .vmem, ⟨18, _⟩ => ⟨S64, .f32⟩
  | .local _ .vmem, ⟨19, _⟩ => ⟨S2048x1, .f32⟩
  | .local _ .vmem, ⟨20, _⟩ => ⟨S2048x1, .f32⟩
  | .local _ .vmem, ⟨21, _⟩ => ⟨S2048x64, .f32⟩
  | .local _ .vmem, ⟨22, _⟩ => ⟨S2048x64, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_cst : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c512_i32 : BitVec 32 := 512#32
  let v1 : BitVec 32 := Scalar.muli arg20 c512_i32
  v1
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c512_i32 : BitVec 32 := 512#32
  let v1 : BitVec 32 := Scalar.muli arg20 c512_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c512_i32 : BitVec 32 := 512#32
  let v1 : BitVec 32 := Scalar.muli arg20 c512_i32
  let v2 : BitVec 32 := v1
  let v53 : Index := Scalar.indexCast v2
  let c0_25 : Index := 0#32
  ![v53.toNat, 0]
def k0_off3 (k0_t1 : Fin k0_t1_loop.trips) : Fin 2 → Nat :=
  let c0_i32 : BitVec 32 := 0#32
  let c1_i32 : BitVec 32 := 1#32
  let arg20 : BitVec 32 := Scf.iv c0_i32 c1_i32 k0_t1
  let c512_i32 : BitVec 32 := 512#32
  let v1 : BitVec 32 := Scalar.muli arg20 c512_i32
  let v2 : BitVec 32 := v1
  let v93 : Index := Scalar.indexCast v2
  let c0_39 : Index := 0#32
  ![v93.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x513 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S513 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S513x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x513 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S513 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S513x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x257 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S257 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S257x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2048x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2048x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S131072_S131072x1 : S131072.ShapeCasts S131072x1
  transposes_S513x512_S512x513_1_0 : S513x512.Transposes [1, 0] S512x513
  bitsLt_bf16_f32 : FTy.bits .bf16 < FTy.bits .f32
  transposes_S256x513_S513x256_1_0 : S256x513.Transposes [1, 0] S513x256
  transposes_S257x256_S256x257_1_0 : S257x256.Transposes [1, 0] S256x257
  transposes_S64x257_S257x64_1_0 : S64x257.Transposes [1, 0] S257x64
  slices_S64x512_S64x256_0_0 : S64x512.Slices ![0, 0] S64x256
  slices_S64x512_S64x256_0_256 : S64x512.Slices ![0, 256] S64x256
  transposes_S64x256_S256x64_1_0 : S64x256.Transposes [1, 0] S256x64
  h_S512x512 : 0 < S512x512.numel
  inb_S512x513_S512x513_0_0 : ∀ a, (![0, 0] : Fin 2 → Nat) a + S512x513.size a ≤ S512x513.size a
  h_S512x513 : 0 < S512x513.numel
  shapeCasts_S512x513_S512x513 : S512x513.ShapeCasts S512x513
  inb_S513_S513_0 : ∀ a, (![0] : Fin 1 → Nat) a + S513.size a ≤ S513.size a
  h_S513 : 0 < S513.numel
  shapeCasts_S513_S1x513 : S513.ShapeCasts S1x513
  broadcasts_S1x513_S512x513 : S1x513.Broadcasts S512x513
  inb_S513x256_S513x256_0_0 : ∀ a, (![0, 0] : Fin 2 → Nat) a + S513x256.size a ≤ S513x256.size a
  h_S513x256 : 0 < S513x256.numel
  shapeCasts_S513x256_S513x256 : S513x256.ShapeCasts S513x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  h_S512x1 : 0 < S512x1.numel
  shapeCasts_S512x1_S512x1 : S512x1.ShapeCasts S512x1
  iota_S512x64_d1_w32 : S512x64.Iotas .tc 32 [1]
  broadcasts_S512x1_S512x64 : S512x1.Broadcasts S512x64
  natLt_1_32 : 1 < 32
  reduces_S512x64_S512 : S512x64.Reduces [1] S512
  shapeCasts_S512_S512x1 : S512.ShapeCasts S512x1
  inb_S256x257_S256x257_0_0 : ∀ a, (![0, 0] : Fin 2 → Nat) a + S256x257.size a ≤ S256x257.size a
  h_S256x257 : 0 < S256x257.numel
  shapeCasts_S256x257_S256x257 : S256x257.ShapeCasts S256x257
  inb_S257_S257_0 : ∀ a, (![0] : Fin 1 → Nat) a + S257.size a ≤ S257.size a
  h_S257 : 0 < S257.numel
  shapeCasts_S257_S1x257 : S257.ShapeCasts S1x257
  broadcasts_S1x257_S512x257 : S1x257.Broadcasts S512x257
  inb_S257x64_S257x64_0_0 : ∀ a, (![0, 0] : Fin 2 → Nat) a + S257x64.size a ≤ S257x64.size a
  h_S257x64 : 0 < S257x64.numel
  shapeCasts_S257x64_S257x64 : S257x64.ShapeCasts S257x64
  h_S512x64 : 0 < S512x64.numel
  dot_S512x512_S512x513_S512x513_1_0_0_1_n_n_wf : DotDims.WF S512x512 S512x513 S512x513 [1] [0] [0] [1] [] []
  dot_S512x513_S513x256_S512x256_1_0_0_1_n_n_wf : DotDims.WF S512x513 S513x256 S512x256 [1] [0] [0] [1] [] []
  dot_S512x256_S256x64_S512x64_1_0_0_1_n_n_wf : DotDims.WF S512x256 S256x64 S512x64 [1] [0] [0] [1] [] []
  dot_S512x256_S256x257_S512x257_1_0_0_1_n_n_wf : DotDims.WF S512x256 S256x257 S512x257 [1] [0] [0] [1] [] []
  dot_S512x257_S257x64_S512x64_1_0_0_1_n_n_wf : DotDims.WF S512x257 S257x64 S512x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x512.size a ≤ S2048x512.size a
  k0_off2_inb : ∀ k0_t1 : Fin k0_t1_loop.trips, ∀ a, (k0_off2 k0_t1) a + S512x1.size a ≤ S2048x1.size a
  k0_off3_inb : ∀ k0_t1 : Fin k0_t1_loop.trips, ∀ a, (k0_off3 k0_t1) a + S512x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x513.size a ≤ S512x513.size a
  hwx0_2 : ∀ i : grid0.Coords, EltTy.bits .bf16 = 32 ∨ (Rect.block (s := S512x513) S512x513.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S513.size a ≤ S513.size a
  hwx0_3 : ∀ i : grid0.Coords, EltTy.bits .f32 = 32 ∨ (Rect.block (s := S513) S513.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S513x256.size a ≤ S513x256.size a
  hwx0_4 : ∀ i : grid0.Coords, EltTy.bits .bf16 = 32 ∨ (Rect.block (s := S513x256) S513x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x513.size a ≤ S512x513.size a
  hwx0_6 : ∀ i : grid0.Coords, EltTy.bits .bf16 = 32 ∨ (Rect.block (s := S512x513) S512x513.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S513.size a ≤ S513.size a
  hwx0_7 : ∀ i : grid0.Coords, EltTy.bits .f32 = 32 ∨ (Rect.block (s := S513) S513.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S513x256.size a ≤ S513x256.size a
  hwx0_8 : ∀ i : grid0.Coords, EltTy.bits .bf16 = 32 ∨ (Rect.block (s := S513x256) S513x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x257.size a ≤ S256x257.size a
  hwx0_10 : ∀ i : grid0.Coords, EltTy.bits .bf16 = 32 ∨ (Rect.block (s := S256x257) S256x257.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S257.size a ≤ S257.size a
  hwx0_11 : ∀ i : grid0.Coords, EltTy.bits .f32 = 32 ∨ (Rect.block (s := S257) S257.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S257x64.size a ≤ S257x64.size a
  hwx0_12 : ∀ i : grid0.Coords, EltTy.bits .bf16 = 32 ∨ (Rect.block (s := S257x64) S257x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x64.size a ≤ S256x64.size a
  hwx0_14 : ∀ i : grid0.Coords, EltTy.bits .bf16 = 32 ∨ (Rect.block (s := S256x64) S256x64.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x64.size a ≤ S256x64.size a
  hwx0_15 : ∀ i : grid0.Coords, EltTy.bits .bf16 = 32 ∨ (Rect.block (s := S256x64) S256x64.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x1.size a ≤ S131072x1.size a
  hwx0_17 : ∀ i : grid0.Coords, EltTy.bits .f32 = 32 ∨ (Rect.block (s := S131072x1) S2048x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x64.size a ≤ S131072x64.size a
  hwx0_18 : ∀ i : grid0.Coords, EltTy.bits .f32 = 32 ∨ (Rect.block (s := S131072x64) S2048x64.size (cc0_transform_18 i) (hinb0_18 i)).WholeWords (EltTy.packing .f32)

variable [Facts₀]

def dot_S512x512_S512x513_S512x513_1_0_0_1_n_n : DotDims S512x512 S512x513 S512x513 where
  lhsContracting := [1]
  rhsContracting := [0]
  lhsNonContracting := [0]
  rhsNonContracting := [1]
  lhsBatch := []
  rhsBatch := []
  wf := dot_S512x512_S512x513_S512x513_1_0_0_1_n_n_wf
def dot_S512x513_S513x256_S512x256_1_0_0_1_n_n : DotDims S512x513 S513x256 S512x256 where
  lhsContracting := [1]
  rhsContracting := [0]
  lhsNonContracting := [0]
  rhsNonContracting := [1]
  lhsBatch := []
  rhsBatch := []
  wf := dot_S512x513_S513x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x256_S256x257_S512x257_1_0_0_1_n_n : DotDims S512x256 S256x257 S512x257 where
  lhsContracting := [1]
  rhsContracting := [0]
  lhsNonContracting := [0]
  rhsNonContracting := [1]
  lhsBatch := []
  rhsBatch := []
  wf := dot_S512x256_S256x257_S512x257_1_0_0_1_n_n_wf
def dot_S512x257_S257x64_S512x64_1_0_0_1_n_n : DotDims S512x257 S257x64 S512x64 where
  lhsContracting := [1]
  rhsContracting := [0]
  lhsNonContracting := [0]
  rhsNonContracting := [1]
  lhsBatch := []
  rhsBatch := []
  wf := dot_S512x257_S257x64_S512x64_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x513.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S513.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S513x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x513.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S513.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S513x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S256x257.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S257.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S257x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S256x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v18) S256x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v19_0) S2048x1.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v19_1) S2048x64.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S513x512 : Shape := ⟨2, ![513, 512]⟩
abbrev S513 : Shape := ⟨1, ![513]⟩
abbrev S256x513 : Shape := ⟨2, ![256, 513]⟩
abbrev S256 : Shape := ⟨1, ![256]⟩
abbrev S257x256 : Shape := ⟨2, ![257, 256]⟩
abbrev S257 : Shape := ⟨1, ![257]⟩
abbrev S64x257 : Shape := ⟨2, ![64, 257]⟩
abbrev S64 : Shape := ⟨1, ![64]⟩
abbrev S64x512 : Shape := ⟨2, ![64, 512]⟩
abbrev S512x513 : Shape := ⟨2, ![512, 513]⟩
abbrev S131072x513 : Shape := ⟨2, ![131072, 513]⟩
abbrev S1x513 : Shape := ⟨2, ![1, 513]⟩
abbrev S_ : Shape := ⟨0, ![]⟩
abbrev S513x256 : Shape := ⟨2, ![513, 256]⟩
abbrev S131072x256 : Shape := ⟨2, ![131072, 256]⟩
abbrev S1x256 : Shape := ⟨2, ![1, 256]⟩
abbrev S512x64 : Shape := ⟨2, ![512, 64]⟩
abbrev S131072x64 : Shape := ⟨2, ![131072, 64]⟩
abbrev S1x64 : Shape := ⟨2, ![1, 64]⟩
abbrev S131072x1 : Shape := ⟨2, ![131072, 1]⟩
abbrev S256x257 : Shape := ⟨2, ![256, 257]⟩
abbrev S131072x257 : Shape := ⟨2, ![131072, 257]⟩
abbrev S1x257 : Shape := ⟨2, ![1, 257]⟩
abbrev S257x64 : Shape := ⟨2, ![257, 64]⟩

abbrev nBuf : Space → Nat
  | .hbm => 87
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S513x512, .f32⟩
  | .hbm, ⟨3, _⟩ => ⟨S513, .f32⟩
  | .hbm, ⟨4, _⟩ => ⟨S256x513, .f32⟩
  | .hbm, ⟨5, _⟩ => ⟨S256, .f32⟩
  | .hbm, ⟨6, _⟩ => ⟨S513x512, .f32⟩
  | .hbm, ⟨7, _⟩ => ⟨S513, .f32⟩
  | .hbm, ⟨8, _⟩ => ⟨S256x513, .f32⟩
  | .hbm, ⟨9, _⟩ => ⟨S256, .f32⟩
  | .hbm, ⟨10, _⟩ => ⟨S257x256, .f32⟩
  | .hbm, ⟨11, _⟩ => ⟨S257, .f32⟩
  | .hbm, ⟨12, _⟩ => ⟨S64x257, .f32⟩
  | .hbm, ⟨13, _⟩ => ⟨S64, .f32⟩
  | .hbm, ⟨14, _⟩ => ⟨S64x512, .f32⟩
  | .hbm, ⟨15, _⟩ => ⟨S64, .f32⟩
  | .hbm, ⟨16, _⟩ => ⟨S512x513, .f32⟩
  | .hbm, ⟨17, _⟩ => ⟨S131072x513, .f32⟩
  | .hbm, ⟨18, _⟩ => ⟨S1x513, .f32⟩
  | .hbm, ⟨19, _⟩ => ⟨S131072x513, .f32⟩
  | .hbm, ⟨20, _⟩ => ⟨S131072x513, .f32⟩
  | .hbm, ⟨21, _⟩ => ⟨S_, .f32⟩
  | .hbm, ⟨22, _⟩ => ⟨S131072x513, .f32⟩
  | .hbm, ⟨23, _⟩ => ⟨S131072x513, .f32⟩
  | .hbm, ⟨24, _⟩ => ⟨S513x256, .f32⟩
  | .hbm, ⟨25, _⟩ => ⟨S131072x256, .f32⟩
  | .hbm, ⟨26, _⟩ => ⟨S1x256, .f32⟩
  | .hbm, ⟨27, _⟩ => ⟨S131072x256, .f32⟩
  | .hbm, ⟨28, _⟩ => ⟨S131072x256, .f32⟩
  | .hbm, ⟨29, _⟩ => ⟨S512x513, .f32⟩
  | .hbm, ⟨30, _⟩ => ⟨S131072x513, .f32⟩
  | .hbm, ⟨31, _⟩ => ⟨S1x513, .f32⟩
  | .hbm, ⟨32, _⟩ => ⟨S131072x513, .f32⟩
  | .hbm, ⟨33, _⟩ => ⟨S131072x513, .f32⟩
  | .hbm, ⟨34, _⟩ => ⟨S_, .f32⟩
  | .hbm, ⟨35, _⟩ => ⟨S131072x513, .f32⟩
  | .hbm, ⟨36, _⟩ => ⟨S131072x513, .f32⟩
  | .hbm, ⟨37, _⟩ => ⟨S513x256, .f32⟩
  | .hbm, ⟨38, _⟩ => ⟨S131072x256, .f32⟩
  | .hbm, ⟨39, _⟩ => ⟨S1x256, .f32⟩
  | .hbm, ⟨40, _⟩ => ⟨S131072x256, .f32⟩
  | .hbm, ⟨41, _⟩ => ⟨S131072x256, .f32⟩
  | .hbm, ⟨42, _⟩ => ⟨S131072x512, .f32⟩
  | .hbm, ⟨43, _⟩ => ⟨S512x64, .f32⟩
  | .hbm, ⟨44, _⟩ => ⟨S131072x64, .f32⟩
  | .hbm, ⟨45, _⟩ => ⟨S1x64, .f32⟩
  | .hbm, ⟨46, _⟩ => ⟨S131072x64, .f32⟩
  | .hbm, ⟨47, _⟩ => ⟨S131072x64, .f32⟩
  | .hbm, ⟨48, _⟩ => ⟨S131072x1, .i32⟩
  | .hbm, ⟨49, _⟩ => ⟨S1x64, .i32⟩
  | .hbm, ⟨50, _⟩ => ⟨S131072x64, .i32⟩
  | .hbm, ⟨51, _⟩ => ⟨S131072x64, .i32⟩
  | .hbm, ⟨52, _⟩ => ⟨S131072x64, .i1⟩
  | .hbm, ⟨53, _⟩ => ⟨S131072x64, .f32⟩
  | .hbm, ⟨54, _⟩ => ⟨S131072x64, .f32⟩
  | .hbm, ⟨55, _⟩ => ⟨S_, .f32⟩
  | .hbm, ⟨56, _⟩ => ⟨S131072, .f32⟩
  | .hbm, ⟨57, _⟩ => ⟨S131072x1, .f32⟩
  | .hbm, ⟨58, _⟩ => ⟨S256x257, .f32⟩
  | .hbm, ⟨59, _⟩ => ⟨S131072x257, .f32⟩
  | .hbm, ⟨60, _⟩ => ⟨S1x257, .f32⟩
  | .hbm, ⟨61, _⟩ => ⟨S131072x257, .f32⟩
  | .hbm, ⟨62, _⟩ => ⟨S131072x257, .f32⟩
  | .hbm, ⟨63, _⟩ => ⟨S_, .f32⟩
  | .hbm, ⟨64, _⟩ => ⟨S131072x257, .f32⟩
  | .hbm, ⟨65, _⟩ => ⟨S131072x257, .f32⟩
  | .hbm, ⟨66, _⟩ => ⟨S257x64, .f32⟩
  | .hbm, ⟨67, _⟩ => ⟨S131072x64, .f32⟩
  | .hbm, ⟨68, _⟩ => ⟨S1x64, .f32⟩
  | .hbm, ⟨69, _⟩ => ⟨S131072x64, .f32⟩
  | .hbm, ⟨70, _⟩ => ⟨S131072x64, .f32⟩
  | .hbm, ⟨71, _⟩ => ⟨S_, .f32⟩
  | .hbm, ⟨72, _⟩ => ⟨S131072, .f32⟩
  | .hbm, ⟨73, _⟩ => ⟨S_, .f32⟩
  | .hbm, ⟨74, _⟩ => ⟨S131072, .f32⟩
  | .hbm, ⟨75, _⟩ => ⟨S131072, .f32⟩
  | .hbm, ⟨76, _⟩ => ⟨S131072x1, .f32⟩
  | .hbm, ⟨77, _⟩ => ⟨S131072x64, .f32⟩
  | .hbm, ⟨78, _⟩ => ⟨S131072x64, .f32⟩
  | .hbm, ⟨79, _⟩ => ⟨S131072x64, .f32⟩
  | .hbm, ⟨80, _⟩ => ⟨S_, .f32⟩
  | .hbm, ⟨81, _⟩ => ⟨S131072, .f32⟩
  | .hbm, ⟨82, _⟩ => ⟨S131072x1, .f32⟩
  | .hbm, ⟨83, _⟩ => ⟨S131072x1, .f32⟩
  | .hbm, ⟨84, _⟩ => ⟨S131072x64, .f32⟩
  | .hbm, ⟨85, _⟩ => ⟨S131072x64, .f32⟩
  | .hbm, ⟨86, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_cst : Ref sig .tc := ⟨.hbm, 34, rfl⟩
abbrev main_call1_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v28 : Ref sig .tc := ⟨.hbm, 53, rfl⟩
abbrev main_v29 : Ref sig .tc := ⟨.hbm, 54, rfl⟩
abbrev main_cst : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call3_cst : Ref sig .tc := ⟨.hbm, 63, rfl⟩
abbrev main_call3_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call4_cst : Ref sig .tc := ⟨.hbm, 71, rfl⟩
abbrev main_call4_v0 : Ref sig .tc := ⟨.hbm, 72, rfl⟩
abbrev main_call4_cst_0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_v6 : Ref sig .tc := ⟨.hbm, 79, rfl⟩
abbrev main_call4_cst_1 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_v43 : Ref sig .tc := ⟨.hbm, 85, rfl⟩
abbrev main_cst_0 : Ref sig .tc := ⟨.hbm, 86, rfl⟩

abbrev nD : Nat := 1
abbrev τ : Topo := Topo.v7x

variable {F : FTy → Type} [FloatOps F]

class Facts₀ : Prop where
  transposes_S513x512_S512x513_1_0 : S513x512.Transposes [1, 0] S512x513
  bcast_S513_S1x513_1 : S513.BroadcastsInDim S1x513 (![1] : Fin 1 → Fin S1x513.rank)
  bcast_S1x513_S131072x513_0_1 : S1x513.BroadcastsInDim S131072x513 (![0, 1] : Fin 2 → Fin S131072x513.rank)
  bcast_S_S131072x513 : S_.BroadcastsInDim S131072x513 (![] : Fin 0 → Fin S131072x513.rank)
  transposes_S256x513_S513x256_1_0 : S256x513.Transposes [1, 0] S513x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  concatenates_S131072x256_S131072x256_S131072x512_d1 : Shape.Concatenates [S131072x256, S131072x256] S131072x512 1
  transposes_S64x512_S512x64_1_0 : S64x512.Transposes [1, 0] S512x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  reducesTo_S131072x64_S131072_d1 : S131072x64.ReducesTo [1] S131072
  h_S_ : 0 < S_.numel
  transposes_S257x256_S256x257_1_0 : S257x256.Transposes [1, 0] S256x257
  bcast_S257_S1x257_1 : S257.BroadcastsInDim S1x257 (![1] : Fin 1 → Fin S1x257.rank)
  bcast_S1x257_S131072x257_0_1 : S1x257.BroadcastsInDim S131072x257 (![0, 1] : Fin 2 → Fin S131072x257.rank)
  bcast_S_S131072x257 : S_.BroadcastsInDim S131072x257 (![] : Fin 0 → Fin S131072x257.rank)
  transposes_S64x257_S257x64_1_0 : S64x257.Transposes [1, 0] S257x64
  bcast_S_S131072 : S_.BroadcastsInDim S131072 (![] : Fin 0 → Fin S131072.rank)
  dot_S131072x512_S512x513_S131072x513_1_0_0_1_n_n_wf : DotDims.WF S131072x512 S512x513 S131072x513 [1] [0] [0] [1] [] []
  dot_S131072x513_S513x256_S131072x256_1_0_0_1_n_n_wf : DotDims.WF S131072x513 S513x256 S131072x256 [1] [0] [0] [1] [] []
  dot_S131072x512_S512x64_S131072x64_1_0_0_1_n_n_wf : DotDims.WF S131072x512 S512x64 S131072x64 [1] [0] [0] [1] [] []
  dot_S131072x256_S256x257_S131072x257_1_0_0_1_n_n_wf : DotDims.WF S131072x256 S256x257 S131072x257 [1] [0] [0] [1] [] []
  dot_S131072x257_S257x64_S131072x64_1_0_0_1_n_n_wf : DotDims.WF S131072x257 S257x64 S131072x64 [1] [0] [0] [1] [] []

variable [Facts₀]

def dot_S131072x512_S512x513_S131072x513_1_0_0_1_n_n : DotDims S131072x512 S512x513 S131072x513 where
  lhsContracting := [1]
  rhsContracting := [0]
  lhsNonContracting := [0]
  rhsNonContracting := [1]
  lhsBatch := []
  rhsBatch := []
  wf := dot_S131072x512_S512x513_S131072x513_1_0_0_1_n_n_wf
def dot_S131072x513_S513x256_S131072x256_1_0_0_1_n_n : DotDims S131072x513 S513x256 S131072x256 where
  lhsContracting := [1]
  rhsContracting := [0]
  lhsNonContracting := [0]
  rhsNonContracting := [1]
  lhsBatch := []
  rhsBatch := []
  wf := dot_S131072x513_S513x256_S131072x256_1_0_0_1_n_n_wf
def dot_S131072x512_S512x64_S131072x64_1_0_0_1_n_n : DotDims S131072x512 S512x64 S131072x64 where
  lhsContracting := [1]
  rhsContracting := [0]
  lhsNonContracting := [0]
  rhsNonContracting := [1]
  lhsBatch := []
  rhsBatch := []
  wf := dot_S131072x512_S512x64_S131072x64_1_0_0_1_n_n_wf
def dot_S131072x256_S256x257_S131072x257_1_0_0_1_n_n : DotDims S131072x256 S256x257 S131072x257 where
  lhsContracting := [1]
  rhsContracting := [0]
  lhsNonContracting := [0]
  rhsNonContracting := [1]
  lhsBatch := []
  rhsBatch := []
  wf := dot_S131072x256_S256x257_S131072x257_1_0_0_1_n_n_wf
def dot_S131072x257_S257x64_S131072x64_1_0_0_1_n_n : DotDims S131072x257 S257x64 S131072x64 where
  lhsContracting := [1]
  rhsContracting := [0]
  lhsNonContracting := [0]
  rhsNonContracting := [1]
  lhsBatch := []
  rhsBatch := []
  wf := dot_S131072x257_S257x64_S131072x64_1_0_0_1_n_n_wf

class Facts : Prop extends Facts₀ where

variable [Facts]
-- ==== Proof.KernelPieces.lean ====
/-
  What the kernel's body leaves in its two output blocks.

  The body is a loop of four trips over a block of 2048 rows; trip k loads rows 512·k … 512·k + 511 of the input block
  and of the cause column, computes the selected prediction (a 512 × 1 column) and the log-propensity (512 × 64) of those
  rows from the whole weight blocks, and stores each at rows 512·k … of its output block. So each output block is
  written by four stores that tile it, and if every store's value is the restriction of ONE function G of the block's
  index to the store's rows, the block ends holding G.
-/
import proofs.«138805_j68719476736547_2_alg».proof.Proof.Gen.KernelIdeal.Frame
import Idealize.ShloMosaic.Lib.Pipeline.Value

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.Sem

variable {F : FTy → Type} [FloatOps F]

/-- The rows trip k reads of the input block, -/
abbrev rowsIn (k : Fin k0_t1_loop.trips) : Rect S2048x512 := Rect.unit (s := S2048x512) (k0_off1 k) S512x512.size (k0_off1_inb k)
/-- of the cause column (and writes of the prediction column), -/
abbrev rowsCol (k : Fin k0_t1_loop.trips) : Rect S2048x1 := Rect.unit (s := S2048x1) (k0_off2 k) S512x1.size (k0_off2_inb k)
/-- and writes of the log-propensity block. -/
abbrev rowsOut (k : Fin k0_t1_loop.trips) : Rect S2048x64 := Rect.unit (s := S2048x64) (k0_off3 k) S512x64.size (k0_off3_inb k)

/-- What one trip stores into the prediction column: the selected prediction of its 512 rows. -/
def tripPred (xb : Vec F S512x512 .f32) (cb : Vec F S512x1 .i32) (x2 : Vec F S512x513 .bf16) (x3 : Vec F S513 .f32) (x4 : Vec F S513x256 .bf16) (x5 : Vec F S256 .f32) (x6 : Vec F S512x513 .bf16) (x7 : Vec F S513 .f32) (x8 : Vec F S513x256 .bf16) (x9 : Vec F S256 .f32) (x10 : Vec F S256x257 .bf16) (x11 : Vec F S257 .f32) (x12 : Vec F S257x64 .bf16) (x13 : Vec F S64 .f32) (x14 : Vec F S256x64 .bf16) (x15 : Vec F S256x64 .bf16) (x16 : Vec F S64 .f32) : FVec F S512x1 .f32 :=
  k0_pay6 (k0_pay3 xb x2 x3 x4 x5) (k0_pay4 xb x6 x7 x8 x9) x14 x15 x16 cb

/-- What one trip stores into the log-propensity block. -/
def tripProp (xb : Vec F S512x512 .f32) (x2 : Vec F S512x513 .bf16) (x3 : Vec F S513 .f32) (x4 : Vec F S513x256 .bf16) (x5 : Vec F S256 .f32) (x6 : Vec F S512x513 .bf16) (x7 : Vec F S513 .f32) (x8 : Vec F S513x256 .bf16) (x9 : Vec F S256 .f32) (x10 : Vec F S256x257 .bf16) (x11 : Vec F S257 .f32) (x12 : Vec F S257x64 .bf16) (x13 : Vec F S64 .f32) (x14 : Vec F S256x64 .bf16) (x15 : Vec F S256x64 .bf16) (x16 : Vec F S64 .f32) : FVec F S512x64 .f32 :=
  k0_pay1 (k0_pay7 (k0_pay3 xb x2 x3 x4 x5) x10 x11 x12) x13

theorem zeros2 : (![0, 0] : Fin 2 → ℕ) = fun _ => 0 := by funext a; fin_cases a <;> rfl
theorem zeros1 : (![0] : Fin 1 → ℕ) = fun _ => 0 := by funext a; fin_cases a; rfl

section
variable (c : Dev nD) (i : grid0.Coords) (arg1 : Memref sig .tc .vmem S2048x512 .f32) (harg1 : arg1.IsWhole) (arg2 : Memref sig .tc .vmem S2048x1 .i32) (harg2 : arg2.IsWhole) (arg3 : Memref sig .tc .vmem S512x513 .bf16) (harg3 : arg3.IsWhole) (arg4 : Memref sig .tc .vmem S513 .f32) (harg4 : arg4.IsWhole) (arg5 : Memref sig .tc .vmem S513x256 .bf16) (harg5 : arg5.IsWhole) (arg6 : Memref sig .tc .vmem S256 .f32) (harg6 : arg6.IsWhole) (arg7 : Memref sig .tc .vmem S512x513 .bf16) (harg7 : arg7.IsWhole) (arg8 : Memref sig .tc .vmem S513 .f32) (harg8 : arg8.IsWhole) (arg9 : Memref sig .tc .vmem S513x256 .bf16) (harg9 : arg9.IsWhole) (arg10 : Memref sig .tc .vmem S256 .f32) (harg10 : arg10.IsWhole) (arg11 : Memref sig .tc .vmem S256x257 .bf16) (harg11 : arg11.IsWhole) (arg12 : Memref sig .tc .vmem S257 .f32) (harg12 : arg12.IsWhole) (arg13 : Memref sig .tc .vmem S257x64 .bf16) (harg13 : arg13.IsWhole) (arg14 : Memref sig .tc .vmem S64 .f32) (harg14 : arg14.IsWhole) (arg15 : Memref sig .tc .vmem S256x64 .bf16) (harg15 : arg15.IsWhole) (arg16 : Memref sig .tc .vmem S256x64 .bf16) (harg16 : arg16.IsWhole) (arg17 : Memref sig .tc .vmem S64 .f32) (harg17 : arg17.IsWhole) (arg18 : Memref sig .tc .vmem S2048x1 .f32) (harg18 : arg18.IsWhole) (arg19 : Memref sig .tc .vmem S2048x64 .f32) (harg19 : arg19.IsWhole) (x0 : Vec F S2048x512 .f32) (x1 : Vec F S2048x1 .i32) (x2 : Vec F S512x513 .bf16) (x3 : Vec F S513 .f32) (x4 : Vec F S513x256 .bf16) (x5 : Vec F S256 .f32) (x6 : Vec F S512x513 .bf16) (x7 : Vec F S513 .f32) (x8 : Vec F S513x256 .bf16) (x9 : Vec F S256 .f32) (x10 : Vec F S256x257 .bf16) (x11 : Vec F S257 .f32) (x12 : Vec F S257x64 .bf16) (x13 : Vec F S64 .f32) (x14 : Vec F S256x64 .bf16) (x15 : Vec F S256x64 .bf16) (x16 : Vec F S64 .f32)

/-- One trip's stores, read off the run once: one store per output, at the trip's rows, of the trip's values of the
    blocks' contents. -/
theorem trip_pieces (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) k
      = ([⟨rowsCol k, tripPred (View.ld x0 (rowsIn k)) (View.ld x1 (rowsCol k)) x2 x3 x4 x5 x6 x7 x8 x9 x10 x11 x12 x13 x14 x15 x16⟩],
         [⟨rowsOut k, tripProp (View.ld x0 (rowsIn k)) x2 x3 x4 x5 x6 x7 x8 x9 x10 x11 x12 x13 x14 x15 x16⟩]) := by
  unfold tripL_k0_t1 trip_k0_t1
  dsimp only
  unfold trip_k0_t1.sl.r_2 trip_k0_t1.sl.r_3 trip_k0_t1.sl.r trip_k0_t1.sl.r_1
  simp only [View.readAt_eq_ld, Memref.IsWhole.read_unread]
  simp only [View.ld_unit_zero (S := S512x513) zeros2, View.ld_unit_zero (S := S513) zeros1,
    View.ld_unit_zero (S := S513x256) zeros2, View.ld_unit_zero (S := S256) zeros1,
    View.ld_unit_zero (S := S256x257) zeros2, View.ld_unit_zero (S := S257) zeros1,
    View.ld_unit_zero (S := S257x64) zeros2, View.ld_unit_zero (S := S64) zeros1,
    View.ld_unit_zero (S := S256x64) zeros2]
  rfl

/-- Every store of the first n trips into The prediction column holds G restricted to the store's rows, if every trip's value does. -/
theorem pieces_pred (G : S2048x1.Idx → Elt F .f32)
    (hG : ∀ (k : Fin k0_t1_loop.trips) (x : (rowsCol k).shape.Idx), tripPred (View.ld x0 (rowsIn k)) (View.ld x1 (rowsCol k)) x2 x3 x4 x5 x6 x7 x8 x9 x10 x11 x12 x13 x14 x15 x16 x = G ((rowsCol k).emb x)) :
    ∀ n, n ≤ k0_t1_loop.trips → ∀ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) n).1,
      ∀ x : p.1.shape.Idx, p.2 x = G (p.1.emb x)
  | 0, _ => by
    intro p hp
    rw [pb_k0_t1] at hp
    exact absurd hp List.not_mem_nil
  | n + 1, hn => by
    intro p hp
    have e : pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) (n + 1) = _ :=
      pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) ⟨n, hn⟩
    rw [e, trip_pieces] at hp
    rcases List.mem_append.mp hp with h | h
    · obtain rfl := List.mem_singleton.mp h
      exact hG ⟨n, hn⟩
    · exact pieces_pred G hG n (Nat.le_of_succ_le hn) p h

/-- The prediction column after the body: the function G, if every trip's value is G on the trip's rows. -/
theorem block_pred (G : S2048x1.Idx → Elt F .f32)
    (hG : ∀ (k : Fin k0_t1_loop.trips) (x : (rowsCol k).shape.Idx), tripPred (View.ld x0 (rowsIn k)) (View.ld x1 (rowsCol k)) x2 x3 x4 x5 x6 x7 x8 x9 x10 x11 x12 x13 x14 x15 x16 x = G ((rowsCol k).emb x)) :
    out0_A_17 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 = G := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16)]
  funext y
  refine View.canon_apply_of_pieces G _ ?_ y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 y)
  have e : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).1
      = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) k0_t1_loop.trips).1 := by
    unfold kernelRun0_A; rfl
  rw [e]
  exact pieces_pred c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 G hG _ le_rfl

/-- Every store of the first n trips into The log-propensity block holds G restricted to the store's rows, if every trip's value does. -/
theorem pieces_prop (G : S2048x64.Idx → Elt F .f32)
    (hG : ∀ (k : Fin k0_t1_loop.trips) (x : (rowsOut k).shape.Idx), tripProp (View.ld x0 (rowsIn k)) x2 x3 x4 x5 x6 x7 x8 x9 x10 x11 x12 x13 x14 x15 x16 x = G ((rowsOut k).emb x)) :
    ∀ n, n ≤ k0_t1_loop.trips → ∀ p ∈ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) n).2,
      ∀ x : p.1.shape.Idx, p.2 x = G (p.1.emb x)
  | 0, _ => by
    intro p hp
    rw [pb_k0_t1] at hp
    exact absurd hp List.not_mem_nil
  | n + 1, hn => by
    intro p hp
    have e : pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) (n + 1) = _ :=
      pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) ⟨n, hn⟩
    rw [e, trip_pieces] at hp
    rcases List.mem_append.mp hp with h | h
    · obtain rfl := List.mem_singleton.mp h
      exact hG ⟨n, hn⟩
    · exact pieces_prop G hG n (Nat.le_of_succ_le hn) p h

/-- The log-propensity block after the body: the function G, if every trip's value is G on the trip's rows. -/
theorem block_prop (G : S2048x64.Idx → Elt F .f32)
    (hG : ∀ (k : Fin k0_t1_loop.trips) (x : (rowsOut k).shape.Idx), tripProp (View.ld x0 (rowsIn k)) x2 x3 x4 x5 x6 x7 x8 x9 x10 x11 x12 x13 x14 x15 x16 x = G ((rowsOut k).emb x)) :
    out0_A_18 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 = G := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16)]
  funext y
  refine View.canon_apply_of_pieces G _ ?_ y (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 y)
  have e : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) k0_t1_loop.trips).2 := by
    unfold kernelRun0_A; rfl
  rw [e]
  exact pieces_prop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 G hG _ le_rfl

end

end Cert.KernelValue

end
-- ==== Proof.Spec.lean ====
/-
  The function both programs compute, row by row, on the extended reals.

  A row x of 512 confounders goes through two two-layer perceptrons with a rectifier in the middle (the confounder
  representation u and the outcome representation v, 256 numbers each). The 64 treatment heads read the pair (u, v):
  head j is Σ_k u_k·H[k, j] + Σ_k v_k·H[256 + k, j] + bh_j, where H is the 512 × 64 matrix of head weights; the
  selected prediction is Σ_j head_j·[j = cause]. A third perceptron maps u to 64 logits z, and the log-propensity is
  the log-softmax (z_j − max z) − log Σ_k exp (z_k − max z), the maximum taken from −∞.

  Every weight matrix appears here already transposed to "input unit × output unit", as both programs transpose it
  before use.
-/
import Idealize.ShloMosaic.PureOps.Ideal
import Idealize.ShloMosaic.Lib.ValueIdx

noncomputable section

namespace Cert.Spec

open Idealize.ShloMosaic Idealize.ShloMosaic.ValueIdx

/-- An a × b matrix of extended reals, indexed as the programs index their arrays. -/
abbrev Mat (a b : ℕ) := (⟨2, ![a, b]⟩ : Shape).Idx → EReal
/-- A vector of a extended reals. -/
abbrev Vct (a : ℕ) := (⟨1, ![a]⟩ : Shape).Idx → EReal

/-- An affine layer at output unit j: Σ_k v_k·A[k, j] + b_j. -/
def lin {K N : ℕ} (v : Fin K → EReal) (A : Mat K N) (b : Vct N) (j : Fin N) : EReal :=
  (∑ k : Fin K, v k * A (ix2 k j)) + b (ix1 j)

/-- The rectifier max(x, 0), the zero being the f32 word of zero. -/
def relu (x : EReal) : EReal := max x (Ideal.ofBits .f32 0x00000000#32)

/-- A two-layer perceptron with a rectifier between the layers. -/
def mlp {K H N : ℕ} (v : Fin K → EReal) (A1 : Mat K H) (b1 : Vct H) (A2 : Mat H N) (b2 : Vct N) : Fin N → EReal :=
  lin (fun h => relu (lin v A1 b1 h)) A2 b2

/-- Treatment head j on the pair (u, v): the head matrix's upper 256 rows meet u, its lower 256 rows meet v. -/
def head (u v : Fin 256 → EReal) (H : Mat 512 64) (bh : Vct 64) (j : Fin 64) : EReal :=
  ((∑ k : Fin 256, u k * H (ix2 (⟨k.val, by omega⟩ : Fin 512) j))
    + ∑ k : Fin 256, v k * H (ix2 (⟨256 + k.val, by omega⟩ : Fin 512) j)) + bh (ix1 j)

/-- The indicator of "treatment j is the row's cause", the cause a 32-bit word. -/
def onehot (c : BitVec 32) (j : Fin 64) : EReal := if BitVec.ofNat 32 j.val = c then 1 else 0

/-- The maximum of finitely many extended reals, taken from −∞ (the f32 word of −∞). -/
def rowmax {N : ℕ} (z : Fin N → EReal) : EReal :=
  (Finset.univ : Finset (Fin N)).fold max (Ideal.ofBits .f32 0xFF800000#32) z

/-- The log-softmax of z at j. -/
def lsm {N : ℕ} (z : Fin N → EReal) (j : Fin N) : EReal :=
  (z j - rowmax z) - Ideal.log (∑ k : Fin N, Ideal.exp (z k - rowmax z))

/-- All the weights, each matrix "input unit × output unit". -/
structure Weights where
  A1c : Mat 512 513
  b1c : Vct 513
  A2c : Mat 513 256
  b2c : Vct 256
  A1o : Mat 512 513
  b1o : Vct 513
  A2o : Mat 513 256
  b2o : Vct 256
  A1p : Mat 256 257
  b1p : Vct 257
  A2p : Mat 257 64
  b2p : Vct 64
  H : Mat 512 64
  bh : Vct 64

variable (w : Weights)

/-- The confounder representation of a row. -/
def confRep (x : Fin 512 → EReal) : Fin 256 → EReal := mlp x w.A1c w.b1c w.A2c w.b2c
/-- The outcome representation of a row. -/
def outRep (x : Fin 512 → EReal) : Fin 256 → EReal := mlp x w.A1o w.b1o w.A2o w.b2o
/-- All 64 treatment heads of a row. -/
def heads (x : Fin 512 → EReal) : Fin 64 → EReal := head (confRep w x) (outRep w x) w.H w.bh
/-- The prediction of the head the row's cause selects. -/
def predSel (x : Fin 512 → EReal) (c : BitVec 32) : EReal := ∑ j : Fin 64, heads w x j * onehot c j
/-- The propensity logits of a row. -/
def logits (x : Fin 512 → EReal) : Fin 64 → EReal := mlp (confRep w x) w.A1p w.b1p w.A2p w.b2p
/-- The log-propensity of a row. -/
def logProp (x : Fin 512 → EReal) : Fin 64 → EReal := lsm (logits w x)

/-- The selected predictions of all rows of an n × 512 array, as an n × 1 array. -/
def predArr {n : ℕ} (x : Mat n 512) (cause : (⟨1, ![n]⟩ : Shape).Idx → BitVec 32) : Mat n 1 :=
  fun i => predSel w (fun k => x (ix2 (i 0) k)) (cause (ix1 (i 0)))
/-- The log-propensities of all rows of an n × 512 array, as an n × 64 array. -/
def propArr {n : ℕ} (x : Mat n 512) : Mat n 64 :=
  fun i => logProp w (fun k => x (ix2 (i 0) k)) (i 1)

/-- A sum over 512 places is the sum over the first 256 plus the sum over the last 256 (no finiteness needed). -/
theorem sum_halves (f : Fin 512 → EReal) :
    ∑ k : Fin 512, f k
      = (∑ k : Fin 256, f (⟨k.val, by omega⟩ : Fin 512)) + ∑ k : Fin 256, f (⟨256 + k.val, by omega⟩ : Fin 512) :=
  Fin.sum_univ_add (a := 256) (b := 256) f

end Cert.Spec

end
-- ==== Proof.Weights.lean ====
/-
  The weights as both programs use them: every weight matrix transposed to "input unit × output unit" (the programs'
  host-side transpose, spelt once), the biases as they are.
-/
import proofs.«138805_j68719476736547_2_alg».proof.Proof.Spec
import Idealize.ShloMosaic.PureOps.ShapeOps

noncomputable section

namespace Cert.Spec

open Idealize.ShloMosaic Idealize.ShloMosaic.ValueIdx

/-- The weight bundle of the sixteen arguments' fourteen weight arrays: each matrix transposed, each bias kept. -/
def weightsOf (W1c : Mat 513 512) (b1c : Vct 513) (W2c : Mat 256 513) (b2c : Vct 256)
    (W1o : Mat 513 512) (b1o : Vct 513) (W2o : Mat 256 513) (b2o : Vct 256)
    (W1p : Mat 257 256) (b1p : Vct 257) (W2p : Mat 64 257) (b2p : Vct 64) (Wh : Mat 64 512) (bh : Vct 64) : Weights where
  A1c := transpose ⟨2, ![512, 513]⟩ [1, 0] W1c
  b1c := b1c
  A2c := transpose ⟨2, ![513, 256]⟩ [1, 0] W2c
  b2c := b2c
  A1o := transpose ⟨2, ![512, 513]⟩ [1, 0] W1o
  b1o := b1o
  A2o := transpose ⟨2, ![513, 256]⟩ [1, 0] W2o
  b2o := b2o
  A1p := transpose ⟨2, ![256, 257]⟩ [1, 0] W1p
  b1p := b1p
  A2p := transpose ⟨2, ![257, 64]⟩ [1, 0] W2p
  b2p := b2p
  H := transpose ⟨2, ![512, 64]⟩ [1, 0] Wh
  bh := bh

end Cert.Spec

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.KernelWindows.lean ====
/-
  The grid and the windows of the kernel's one pipelined call, and what its arrays hold when the call starts.

  The grid has 64 points; point t works on rows 2048·t … 2048·t + 2047: the input, the cause column and both outputs are
  cut into 64 blocks of 2048 rows, block t belonging to point t; every weight array is one block, the same at every
  point. Before the call the host has transposed each weight matrix (and cut the head matrix into its left and right
  halves, transposing each), and recast the cause vector as a column.
-/
import proofs.«138805_j68719476736547_2_alg».proof.Proof.Gen.KernelIdeal.Frame
import Idealize.ShloMosaic.Lib.Pipeline.Value
import proofs.«138805_j68719476736547_2_alg».proof.Proof.Weights
import Idealize.ShloMosaic.Lib.StableHlo.Run
import proofs.«138805_j68719476736547_2_alg».proof.Proof.LibKeepdims

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.Sem

open Idealize.ShloMosaic.ValueIdx
open Idealize.ShloMosaic.Pipeline (Dat Cfg Window)

variable (m : (ℓ : Loc nD τ sig) → Buf (Elt Ideal) ℓ)

/-- The index maps, decided over the 64 grid points: the four row-blocked windows are at block (t, 0), every other
    window at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_17.index t (0 : Fin 2) = t.val
    ∧ win0_17.index t (1 : Fin 2) = 0
    ∧ win0_18.index t (0 : Fin 2) = t.val
    ∧ win0_18.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 1) = 0 :=
  (by decide +kernel : ∀ t : Fin grid0.N, _)

/-- Window 2 is one whole array: its block at every grid point is the array. -/
theorem iblk_2 (c : Dev nD) (t : Fin cfg0.N) : (iblk m c 2 t : S512x513.Idx → _) = V m c main_v2 := by
  funext y
  show V m c main_v2 (((cfg0.win 2).blk t).view.emb y) = V m c main_v2 y
  refine congrArg _ (funext fun a => Fin.ext ?_)
  match a with
  | ⟨0, _⟩ => show win0_2.index t (0 : Fin 2) * 512 + 1 * (y 0).val = (y 0).val; rw [(idx_facts t).2.2.2.2.2.2.2.2.1]; omega
  | ⟨1, _⟩ => show win0_2.index t (1 : Fin 2) * 513 + 1 * (y 1).val = (y 1).val; rw [(idx_facts t).2.2.2.2.2.2.2.2.2.1]; omega

/-- Window 3 is one whole array: its block at every grid point is the array. -/
theorem iblk_3 (c : Dev nD) (t : Fin cfg0.N) : (iblk m c 3 t : S513.Idx → _) = V m c main_arg3 := by
  funext y
  show V m c main_arg3 (((cfg0.win 3).blk t).view.emb y) = V m c main_arg3 y
  refine congrArg _ (funext fun a => Fin.ext ?_)
  match a with
  | ⟨0, _⟩ => show win0_3.index t (0 : Fin 1) * 513 + 1 * (y 0).val = (y 0).val; rw [(idx_facts t).2.2.2.2.2.2.2.2.2.2.1]; omega

/-- Window 4 is one whole array: its block at every grid point is the array. -/
theorem iblk_4 (c : Dev nD) (t : Fin cfg0.N) : (iblk m c 4 t : S513x256.Idx → _) = V m c main_v4 := by
  funext y
  show V m c main_v4 (((cfg0.win 4).blk t).view.emb y) = V m c main_v4 y
  refine congrArg _ (funext fun a => Fin.ext ?_)
  match a with
  | ⟨0, _⟩ => show win0_4.index t (0 : Fin 2) * 513 + 1 * (y 0).val = (y 0).val; rw [(idx_facts t).2.2.2.2.2.2.2.2.2.2.2.1]; omega
  | ⟨1, _⟩ => show win0_4.index t (1 : Fin 2) * 256 + 1 * (y 1).val = (y 1).val; rw [(idx_facts t).2.2.2.2.2.2.2.2.2.2.2.2.1]; omega

/-- Window 5 is one whole array: its block at every grid point is the array. -/
theorem iblk_5 (c : Dev nD) (t : Fin cfg0.N) : (iblk m c 5 t : S256.Idx → _) = V m c main_arg5 := by
  funext y
  show V m c main_arg5 (((cfg0.win 5).blk t).view.emb y) = V m c main_arg5 y
  refine congrArg _ (funext fun a => Fin.ext ?_)
  match a with
  | ⟨0, _⟩ => show win0_5.index t (0 : Fin 1) * 256 + 1 * (y 0).val = (y 0).val; rw [(idx_facts t).2.2.2.2.2.2.2.2.2.2.2.2.2.1]; omega

/-- Window 6 is one whole array: its block at every grid point is the array. -/
theorem iblk_6 (c : Dev nD) (t : Fin cfg0.N) : (iblk m c 6 t : S512x513.Idx → _) = V m c main_v6 := by
  funext y
  show V m c main_v6 (((cfg0.win 6).blk t).view.emb y) = V m c main_v6 y
  refine congrArg _ (funext fun a => Fin.ext ?_)
  match a with
  | ⟨0, _⟩ => show win0_6.index t (0 : Fin 2) * 512 + 1 * (y 0).val = (y 0).val; rw [(idx_facts t).2.2.2.2.2.2.2.2.2.2.2.2.2.2.1]; omega
  | ⟨1, _⟩ => show win0_6.index t (1 : Fin 2) * 513 + 1 * (y 1).val = (y 1).val; rw [(idx_facts t).2.2.2.2.2.2.2.2.2.2.2.2.2.2.2.1]; omega

/-- Window 7 is one whole array: its block at every grid point is the array. -/
theorem iblk_7 (c : Dev nD) (t : Fin cfg0.N) : (iblk m c 7 t : S513.Idx → _) = V m c main_arg7 := by
  funext y
  show V m c main_arg7 (((cfg0.win 7).blk t).view.emb y) = V m c main_arg7 y
  refine congrArg _ (funext fun a => Fin.ext ?_)
  match a with
  | ⟨0, _⟩ => show win0_7.index t (0 : Fin 1) * 513 + 1 * (y 0).val = (y 0).val; rw [(idx_facts t).2.2.2.2.2.2.2.2.2.2.2.2.2.2.2.2.1]; omega

/-- Window 8 is one whole array: its block at every grid point is the array. -/
theorem iblk_8 (c : Dev nD) (t : Fin cfg0.N) : (iblk m c 8 t : S513x256.Idx → _) = V m c main_v8 := by
  funext y
  show V m c main_v8 (((cfg0.win 8).blk t).view.emb y) = V m c main_v8 y
  refine congrArg _ (funext fun a => Fin.ext ?_)
  match a with
  | ⟨0, _⟩ => show win0_8.index t (0 : Fin 2) * 513 + 1 * (y 0).val = (y 0).val; rw [(idx_facts t).2.2.2.2.2.2.2.2.2.2.2.2.2.2.2.2.2.1]; omega
  | ⟨1, _⟩ => show win0_8.index t (1 : Fin 2) * 256 + 1 * (y 1).val = (y 1).val; rw [(idx_facts t).2.2.2.2.2.2.2.2.2.2.2.2.2.2.2.2.2.2.1]; omega

/-- Window 9 is one whole array: its block at every grid point is the array. -/
theorem iblk_9 (c : Dev nD) (t : Fin cfg0.N) : (iblk m c 9 t : S256.Idx → _) = V m c main_arg9 := by
  funext y
  show V m c main_arg9 (((cfg0.win 9).blk t).view.emb y) = V m c main_arg9 y
  refine congrArg _ (funext fun a => Fin.ext ?_)
  match a with
  | ⟨0, _⟩ => show win0_9.index t (0 : Fin 1) * 256 + 1 * (y 0).val = (y 0).val; rw [(idx_facts t).2.2.2.2.2.2.2.2.2.2.2.2.2.2.2.2.2.2.2.1]; omega

/-- Window 10 is one whole array: its block at every grid point is the array. -/
theorem iblk_10 (c : Dev nD) (t : Fin cfg0.N) : (iblk m c 10 t : S256x257.Idx → _) = V m c main_v10 := by
  funext y
  show V m c main_v10 (((cfg0.win 10).blk t).view.emb y) = V m c main_v10 y
  refine congrArg _ (funext fun a => Fin.ext ?_)
  match a with
  | ⟨0, _⟩ => show win0_10.index t (0 : Fin 2) * 256 + 1 * (y 0).val = (y 0).val; rw [(idx_facts t).2.2.2.2.2.2.2.2.2.2.2.2.2.2.2.2.2.2.2.2.1]; omega
  | ⟨1, _⟩ => show win0_10.index t (1 : Fin 2) * 257 + 1 * (y 1).val = (y 1).val; rw [(idx_facts t).2.2.2.2.2.2.2.2.2.2.2.2.2.2.2.2.2.2.2.2.2.1]; omega

/-- Window 11 is one whole array: its block at every grid point is the array. -/
theorem iblk_11 (c : Dev nD) (t : Fin cfg0.N) : (iblk m c 11 t : S257.Idx → _) = V m c main_arg11 := by
  funext y
  show V m c main_arg11 (((cfg0.win 11).blk t).view.emb y) = V m c main_arg11 y
  refine congrArg _ (funext fun a => Fin.ext ?_)
  match a with
  | ⟨0, _⟩ => show win0_11.index t (0 : Fin 1) * 257 + 1 * (y 0).val = (y 0).val; rw [(idx_facts t).2.2.2.2.2.2.2.2.2.2.2.2.2.2.2.2.2.2.2.2.2.2.1]; omega

/-- Window 12 is one whole array: its block at every grid point is the array. -/
theorem iblk_12 (c : Dev nD) (t : Fin cfg0.N) : (iblk m c 12 t : S257x64.Idx → _) = V m c main_v12 := by
  funext y
  show V m c main_v12 (((cfg0.win 12).blk t).view.emb y) = V m c main_v12 y
  refine congrArg _ (funext fun a => Fin.ext ?_)
  match a with
  | ⟨0, _⟩ => show win0_12.index t (0 : Fin 2) * 257 + 1 * (y 0).val = (y 0).val; rw [(idx_facts t).2.2.2.2.2.2.2.2.2.2.2.2.2.2.2.2.2.2.2.2.2.2.2.1]; omega
  | ⟨1, _⟩ => show win0_12.index t (1 : Fin 2) * 64 + 1 * (y 1).val = (y 1).val; rw [(idx_facts t).2.2.2.2.2.2.2.2.2.2.2.2.2.2.2.2.2.2.2.2.2.2.2.2.1]; omega

/-- Window 13 is one whole array: its block at every grid point is the array. -/
theorem iblk_13 (c : Dev nD) (t : Fin cfg0.N) : (iblk m c 13 t : S64.Idx → _) = V m c main_arg13 := by
  funext y
  show V m c main_arg13 (((cfg0.win 13).blk t).view.emb y) = V m c main_arg13 y
  refine congrArg _ (funext fun a => Fin.ext ?_)
  match a with
  | ⟨0, _⟩ => show win0_13.index t (0 : Fin 1) * 64 + 1 * (y 0).val = (y 0).val; rw [(idx_facts t).2.2.2.2.2.2.2.2.2.2.2.2.2.2.2.2.2.2.2.2.2.2.2.2.2.1]; omega

/-- Window 14 is one whole array: its block at every grid point is the array. -/
theorem iblk_14 (c : Dev nD) (t : Fin cfg0.N) : (iblk m c 14 t : S256x64.Idx → _) = V m c main_v16 := by
  funext y
  show V m c main_v16 (((cfg0.win 14).blk t).view.emb y) = V m c main_v16 y
  refine congrArg _ (funext fun a => Fin.ext ?_)
  match a with
  | ⟨0, _⟩ => show win0_14.index t (0 : Fin 2) * 256 + 1 * (y 0).val = (y 0).val; rw [(idx_facts t).2.2.2.2.2.2.2.2.2.2.2.2.2.2.2.2.2.2.2.2.2.2.2.2.2.2.1]; omega
  | ⟨1, _⟩ => show win0_14.index t (1 : Fin 2) * 64 + 1 * (y 1).val = (y 1).val; rw [(idx_facts t).2.2.2.2.2.2.2.2.2.2.2.2.2.2.2.2.2.2.2.2.2.2.2.2.2.2.2.1]; omega

/-- Window 15 is one whole array: its block at every grid point is the array. -/
theorem iblk_15 (c : Dev nD) (t : Fin cfg0.N) : (iblk m c 15 t : S256x64.Idx → _) = V m c main_v18 := by
  funext y
  show V m c main_v18 (((cfg0.win 15).blk t).view.emb y) = V m c main_v18 y
  refine congrArg _ (funext fun a => Fin.ext ?_)
  match a with
  | ⟨0, _⟩ => show win0_15.index t (0 : Fin 2) * 256 + 1 * (y 0).val = (y 0).val; rw [(idx_facts t).2.2.2.2.2.2.2.2.2.2.2.2.2.2.2.2.2.2.2.2.2.2.2.2.2.2.2.2.1]; omega
  | ⟨1, _⟩ => show win0_15.index t (1 : Fin 2) * 64 + 1 * (y 1).val = (y 1).val; rw [(idx_facts t).2.2.2.2.2.2.2.2.2.2.2.2.2.2.2.2.2.2.2.2.2.2.2.2.2.2.2.2.2.1]; omega

/-- Window 16 is one whole array: its block at every grid point is the array. -/
theorem iblk_16 (c : Dev nD) (t : Fin cfg0.N) : (iblk m c 16 t : S64.Idx → _) = V m c main_arg15 := by
  funext y
  show V m c main_arg15 (((cfg0.win 16).blk t).view.emb y) = V m c main_arg15 y
  refine congrArg _ (funext fun a => Fin.ext ?_)
  match a with
  | ⟨0, _⟩ => show win0_16.index t (0 : Fin 1) * 64 + 1 * (y 0).val = (y 0).val; rw [(idx_facts t).2.2.2.2.2.2.2.2.2.2.2.2.2.2.2.2.2.2.2.2.2.2.2.2.2.2.2.2.2.2]; omega

/-- The weights the call finds: the arguments' weight arrays, transposed as the host transposes them. -/
def W (c : Dev nD) : Cert.Spec.Weights :=
  Cert.Spec.weightsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

theorem V_v2 (c : Dev nD) : (V m c main_v2 : S512x513.Idx → EReal) = (W m c).A1c := by
  show StableHlo.after hostOps0 (fun b => m (c, b)) (Proc.devRef .tc main_v2) = _
  after_results
  rfl

theorem V_v4 (c : Dev nD) : (V m c main_v4 : S513x256.Idx → EReal) = (W m c).A2c := by
  show StableHlo.after hostOps0 (fun b => m (c, b)) (Proc.devRef .tc main_v4) = _
  after_results
  rfl

theorem V_v6 (c : Dev nD) : (V m c main_v6 : S512x513.Idx → EReal) = (W m c).A1o := by
  show StableHlo.after hostOps0 (fun b => m (c, b)) (Proc.devRef .tc main_v6) = _
  after_results
  rfl

theorem V_v8 (c : Dev nD) : (V m c main_v8 : S513x256.Idx → EReal) = (W m c).A2o := by
  show StableHlo.after hostOps0 (fun b => m (c, b)) (Proc.devRef .tc main_v8) = _
  after_results
  rfl

theorem V_v10 (c : Dev nD) : (V m c main_v10 : S256x257.Idx → EReal) = (W m c).A1p := by
  show StableHlo.after hostOps0 (fun b => m (c, b)) (Proc.devRef .tc main_v10) = _
  after_results
  rfl

theorem V_v12 (c : Dev nD) : (V m c main_v12 : S257x64.Idx → EReal) = (W m c).A2p := by
  show StableHlo.after hostOps0 (fun b => m (c, b)) (Proc.devRef .tc main_v12) = _
  after_results
  rfl

/-- The left half of the head matrix, cut and transposed by the host, at (k, j): the transposed head matrix at row k.val. -/
theorem V_v16 (c : Dev nD) (k : Fin 256) (j : Fin 64) :
    (V m c main_v16 : S256x64.Idx → EReal) (ix2 k j) = (W m c).H (ix2 (⟨k.val, by omega⟩ : Fin 512) j) := by
  have e : (V m c main_v16 : S256x64.Idx → EReal) (ix2 k j)
      = m ((c : Thread nD τ).loc main_arg14) (ix2 j (⟨k.val, by omega⟩ : Fin 512)) := by
    show StableHlo.after hostOps0 (fun b => m (c, b)) (Proc.devRef .tc main_v16) (ix2 k j) = _
    after_results
    have ht : ∀ (x : FVec Ideal S256x64 .f32) (h : FTy.bf16.bits < FTy.f32.bits), truncf (F := Ideal) .bf16 x h = x := fun _ _ => rfl
    rw [ht]
    refine (transpose_apply [1, 0] _ _ (ix2 k j) (ix2 j k) (fun b => match b with
      | ⟨0, _⟩ => rfl
      | ⟨1, _⟩ => rfl)).trans ?_
    exact extractStridedSlice_apply _ _ _ (ix2 j k) (ix2 j (⟨k.val, by omega⟩ : Fin 512)) (fun a => match a with
      | ⟨0, _⟩ => by show j.val = 0 + j.val; omega
      | ⟨1, _⟩ => by show k.val = 0 + k.val; omega)
  rw [e]
  unfold W Cert.Spec.weightsOf
  exact (transpose_apply [1, 0] _ _ (ix2 (⟨k.val, by omega⟩ : Fin 512) j) (ix2 j (⟨k.val, by omega⟩ : Fin 512)) (fun b => match b with
    | ⟨0, _⟩ => rfl
    | ⟨1, _⟩ => rfl)).symm

/-- The right half of the head matrix, cut and transposed by the host, at (k, j): the transposed head matrix at row 256 + k.val. -/
theorem V_v18 (c : Dev nD) (k : Fin 256) (j : Fin 64) :
    (V m c main_v18 : S256x64.Idx → EReal) (ix2 k j) = (W m c).H (ix2 (⟨256 + k.val, by omega⟩ : Fin 512) j) := by
  have e : (V m c main_v18 : S256x64.Idx → EReal) (ix2 k j)
      = m ((c : Thread nD τ).loc main_arg14) (ix2 j (⟨256 + k.val, by omega⟩ : Fin 512)) := by
    show StableHlo.after hostOps0 (fun b => m (c, b)) (Proc.devRef .tc main_v18) (ix2 k j) = _
    after_results
    have ht : ∀ (x : FVec Ideal S256x64 .f32) (h : FTy.bf16.bits < FTy.f32.bits), truncf (F := Ideal) .bf16 x h = x := fun _ _ => rfl
    rw [ht]
    refine (transpose_apply [1, 0] _ _ (ix2 k j) (ix2 j k) (fun b => match b with
      | ⟨0, _⟩ => rfl
      | ⟨1, _⟩ => rfl)).trans ?_
    exact extractStridedSlice_apply _ _ _ (ix2 j k) (ix2 j (⟨256 + k.val, by omega⟩ : Fin 512)) (fun a => match a with
      | ⟨0, _⟩ => by show j.val = 0 + j.val; omega
      | ⟨1, _⟩ => by show 256 + k.val = 256 + k.val; omega)
  rw [e]
  unfold W Cert.Spec.weightsOf
  exact (transpose_apply [1, 0] _ _ (ix2 (⟨256 + k.val, by omega⟩ : Fin 512) j) (ix2 j (⟨256 + k.val, by omega⟩ : Fin 512)) (fun b => match b with
    | ⟨0, _⟩ => rfl
    | ⟨1, _⟩ => rfl)).symm

/-- The cause vector recast as a column, at (r, z): the cause of row r. -/
theorem V_v0 (c : Dev nD) (r : Fin 131072) (z : Fin 1) :
    (V m c main_v0 : S131072x1.Idx → BitVec 32) (ix2 r z) = m ((c : Thread nD τ).loc main_arg1) (ix1 r) := by
  show StableHlo.after hostOps0 (fun b => m (c, b)) (Proc.devRef .tc main_v0) (ix2 r z) = _
  after_results
  exact LibKeepdims.shapeCast_col_apply (a := 131072) _ _ r z

end Cert.KernelValue

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«138805_j68719476736547_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.PayIsSpec.lean ====
/-
  The kernel body's arithmetic, read at one entry at exact arithmetic, is the specification's row function.

  Every stage of the body is one of the specification's definitions unfolded. A product of two matrices into the zero
  accumulator, at an entry, is the sum over the contracted axis of the products of the entries. A bias vector cast to
  a row and broadcast down the rows reads, at (p, q), the vector at q. The rectifier is the maximum with the zero
  word's value, which the specification keeps as that word. A narrowing format change is the identity on extended
  reals. A row maximum or a row sum kept as a column and broadcast back reads, at (p, q), the maximum or the sum of
  row p. The selection mask compares the column counter with the row's cause, and is the indicator of their
  equality. No algebraic law is used: the two sides agree term by term.

  The two results: the selection output at (p, 0) is the selected prediction of row p (`pred_at`), and the
  propensity output at (p, q) is the log-propensity of row p at q (`prop_at`).
-/
import proofs.«138805_j68719476736547_2_alg».proof.Proof.Spec
import proofs.«138805_j68719476736547_2_alg».proof.Proof.Gen.KernelIdeal.Skeleton
import proofs.«138805_j68719476736547_2_alg».proof.Proof.LibMatmulIdx
import proofs.«138805_j68719476736547_2_alg».proof.Proof.LibRowOps
import proofs.«138805_j68719476736547_2_alg».proof.Proof.LibKeepdims
import proofs.«138805_j68719476736547_2_alg».proof.Proof.LibColumnOps

noncomputable section

namespace Cert.PayIsSpec

open Cert.KernelIdeal Cert.KernelIdeal.Gen Idealize.ShloMosaic Idealize.ShloMosaic.ValueIdx

/-! ## The five matrix products at an entry

  Each is the general two-matrix product lemma at the contraction record the body uses: the record contracts the left
  factor's second axis with the right factor's first, so the left index is (row of the result, contracted position)
  and the right index is (contracted position, column of the result). -/

/-- The 512×512 by 512×513 product into the zero splat at (p, q): Σ_k l[p, k]·r[k, q]. -/
theorem mmA_apply (l : FVec Ideal S512x512 .bf16) (r : FVec Ideal S512x513 .bf16) (p : Fin 512) (q : Fin 513) :
    matmul (F := Ideal) dot_S512x512_S512x513_S512x513_1_0_0_1_n_n none l r (constant (F := Ideal) S512x513 .f32 0x00000000#32) (ix2 p q)
      = ∑ k : Fin 512, l (ix2 p k) * r (ix2 k q) :=
  LibMatmulIdx.matmul2_apply dot_S512x512_S512x513_S512x513_1_0_0_1_n_n rfl rfl
    (fun j k => by
      unfold DotDims.lhsIdx
      rw [dif_neg (show ¬(0 : Fin S512x512.rank) ∈ dot_S512x512_S512x513_S512x513_1_0_0_1_n_n.lhsBatch by decide),
        dif_pos (show (0 : Fin S512x512.rank) ∈ dot_S512x512_S512x513_S512x513_1_0_0_1_n_n.lhsNonContracting by decide)]
      rfl)
    (fun j k => dot_S512x512_S512x513_S512x513_1_0_0_1_n_n.lhsIdx_val_of_single rfl j k)
    (fun j k => dot_S512x512_S512x513_S512x513_1_0_0_1_n_n.rhsIdx_val_of_single rfl j k)
    (fun j k => by
      unfold DotDims.rhsIdx
      rw [dif_neg (show ¬(1 : Fin S512x513.rank) ∈ dot_S512x512_S512x513_S512x513_1_0_0_1_n_n.rhsBatch by decide),
        dif_pos (show (1 : Fin S512x513.rank) ∈ dot_S512x512_S512x513_S512x513_1_0_0_1_n_n.rhsNonContracting by decide)]
      rfl)
    none l r (ix2 p q)

/-- The 512×513 by 513×256 product into the zero splat at (p, q): Σ_k l[p, k]·r[k, q]. -/
theorem mmB_apply (l : FVec Ideal S512x513 .bf16) (r : FVec Ideal S513x256 .bf16) (p : Fin 512) (q : Fin 256) :
    matmul (F := Ideal) dot_S512x513_S513x256_S512x256_1_0_0_1_n_n none l r (constant (F := Ideal) S512x256 .f32 0x00000000#32) (ix2 p q)
      = ∑ k : Fin 513, l (ix2 p k) * r (ix2 k q) :=
  LibMatmulIdx.matmul2_apply dot_S512x513_S513x256_S512x256_1_0_0_1_n_n rfl rfl
    (fun j k => by
      unfold DotDims.lhsIdx
      rw [dif_neg (show ¬(0 : Fin S512x513.rank) ∈ dot_S512x513_S513x256_S512x256_1_0_0_1_n_n.lhsBatch by decide),
        dif_pos (show (0 : Fin S512x513.rank) ∈ dot_S512x513_S513x256_S512x256_1_0_0_1_n_n.lhsNonContracting by decide)]
      rfl)
    (fun j k => dot_S512x513_S513x256_S512x256_1_0_0_1_n_n.lhsIdx_val_of_single rfl j k)
    (fun j k => dot_S512x513_S513x256_S512x256_1_0_0_1_n_n.rhsIdx_val_of_single rfl j k)
    (fun j k => by
      unfold DotDims.rhsIdx
      rw [dif_neg (show ¬(1 : Fin S513x256.rank) ∈ dot_S512x513_S513x256_S512x256_1_0_0_1_n_n.rhsBatch by decide),
        dif_pos (show (1 : Fin S513x256.rank) ∈ dot_S512x513_S513x256_S512x256_1_0_0_1_n_n.rhsNonContracting by decide)]
      rfl)
    none l r (ix2 p q)

/-- The 512×256 by 256×64 product into the zero splat at (p, q): Σ_k l[p, k]·r[k, q]. -/
theorem mmC_apply (l : FVec Ideal S512x256 .bf16) (r : FVec Ideal S256x64 .bf16) (p : Fin 512) (q : Fin 64) :
    matmul (F := Ideal) dot_S512x256_S256x64_S512x64_1_0_0_1_n_n none l r (constant (F := Ideal) S512x64 .f32 0x00000000#32) (ix2 p q)
      = ∑ k : Fin 256, l (ix2 p k) * r (ix2 k q) :=
  LibMatmulIdx.matmul2_apply dot_S512x256_S256x64_S512x64_1_0_0_1_n_n rfl rfl
    (fun j k => by
      unfold DotDims.lhsIdx
      rw [dif_neg (show ¬(0 : Fin S512x256.rank) ∈ dot_S512x256_S256x64_S512x64_1_0_0_1_n_n.lhsBatch by decide),
        dif_pos (show (0 : Fin S512x256.rank) ∈ dot_S512x256_S256x64_S512x64_1_0_0_1_n_n.lhsNonContracting by decide)]
      rfl)
    (fun j k => dot_S512x256_S256x64_S512x64_1_0_0_1_n_n.lhsIdx_val_of_single rfl j k)
    (fun j k => dot_S512x256_S256x64_S512x64_1_0_0_1_n_n.rhsIdx_val_of_single rfl j k)
    (fun j k => by
      unfold DotDims.rhsIdx
      rw [dif_neg (show ¬(1 : Fin S256x64.rank) ∈ dot_S512x256_S256x64_S512x64_1_0_0_1_n_n.rhsBatch by decide),
        dif_pos (show (1 : Fin S256x64.rank) ∈ dot_S512x256_S256x64_S512x64_1_0_0_1_n_n.rhsNonContracting by decide)]
      rfl)
    none l r (ix2 p q)

/-- The 512×256 by 256×257 product into the zero splat at (p, q): Σ_k l[p, k]·r[k, q]. -/
theorem mmD_apply (l : FVec Ideal S512x256 .bf16) (r : FVec Ideal S256x257 .bf16) (p : Fin 512) (q : Fin 257) :
    matmul (F := Ideal) dot_S512x256_S256x257_S512x257_1_0_0_1_n_n none l r (constant (F := Ideal) S512x257 .f32 0x00000000#32) (ix2 p q)
      = ∑ k : Fin 256, l (ix2 p k) * r (ix2 k q) :=
  LibMatmulIdx.matmul2_apply dot_S512x256_S256x257_S512x257_1_0_0_1_n_n rfl rfl
    (fun j k => by
      unfold DotDims.lhsIdx
      rw [dif_neg (show ¬(0 : Fin S512x256.rank) ∈ dot_S512x256_S256x257_S512x257_1_0_0_1_n_n.lhsBatch by decide),
        dif_pos (show (0 : Fin S512x256.rank) ∈ dot_S512x256_S256x257_S512x257_1_0_0_1_n_n.lhsNonContracting by decide)]
      rfl)
    (fun j k => dot_S512x256_S256x257_S512x257_1_0_0_1_n_n.lhsIdx_val_of_single rfl j k)
    (fun j k => dot_S512x256_S256x257_S512x257_1_0_0_1_n_n.rhsIdx_val_of_single rfl j k)
    (fun j k => by
      unfold DotDims.rhsIdx
      rw [dif_neg (show ¬(1 : Fin S256x257.rank) ∈ dot_S512x256_S256x257_S512x257_1_0_0_1_n_n.rhsBatch by decide),
        dif_pos (show (1 : Fin S256x257.rank) ∈ dot_S512x256_S256x257_S512x257_1_0_0_1_n_n.rhsNonContracting by decide)]
      rfl)
    none l r (ix2 p q)

/-- The 512×257 by 257×64 product into the zero splat at (p, q): Σ_k l[p, k]·r[k, q]. -/
theorem mmE_apply (l : FVec Ideal S512x257 .bf16) (r : FVec Ideal S257x64 .bf16) (p : Fin 512) (q : Fin 64) :
    matmul (F := Ideal) dot_S512x257_S257x64_S512x64_1_0_0_1_n_n none l r (constant (F := Ideal) S512x64 .f32 0x00000000#32) (ix2 p q)
      = ∑ k : Fin 257, l (ix2 p k) * r (ix2 k q) :=
  LibMatmulIdx.matmul2_apply dot_S512x257_S257x64_S512x64_1_0_0_1_n_n rfl rfl
    (fun j k => by
      unfold DotDims.lhsIdx
      rw [dif_neg (show ¬(0 : Fin S512x257.rank) ∈ dot_S512x257_S257x64_S512x64_1_0_0_1_n_n.lhsBatch by decide),
        dif_pos (show (0 : Fin S512x257.rank) ∈ dot_S512x257_S257x64_S512x64_1_0_0_1_n_n.lhsNonContracting by decide)]
      rfl)
    (fun j k => dot_S512x257_S257x64_S512x64_1_0_0_1_n_n.lhsIdx_val_of_single rfl j k)
    (fun j k => dot_S512x257_S257x64_S512x64_1_0_0_1_n_n.rhsIdx_val_of_single rfl j k)
    (fun j k => by
      unfold DotDims.rhsIdx
      rw [dif_neg (show ¬(1 : Fin S257x64.rank) ∈ dot_S512x257_S257x64_S512x64_1_0_0_1_n_n.rhsBatch by decide),
        dif_pos (show (1 : Fin S257x64.rank) ∈ dot_S512x257_S257x64_S512x64_1_0_0_1_n_n.rhsNonContracting by decide)]
      rfl)
    none l r (ix2 p q)

/-! ## A bias vector used as a row -/

/-- A vector of length b cast to the [1, b] row and broadcast down a rows reads, at (p, q), the vector at q. -/
theorem bias_row_apply {a b : ℕ} (v : FVec Ideal ⟨1, ![b]⟩ .f32) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) := by
  rw [LibRowOps.broadcastTo_row_apply, LibRowOps.shapeCast_row_apply]

/-! ## The two representations: a perceptron 512 → 513 → 256 -/

/-- The first layer with its rectifier at (p, h): max(Σ_k x[p, k]·A1[k, h] + b1[h], 0). The narrowing of x to the
    matrix unit's input format is the identity on extended reals, and the zero the rectifier compares with is the
    zero word's value, which the specification keeps as that word. -/
theorem hidden_at (x : FVec Ideal S512x512 .f32) (A1 : FVec Ideal S512x513 .bf16) (b1 : FVec Ideal S513 .f32)
    (p : Fin 512) (h : Fin 513) :
    maximumf (F := Ideal)
        (addf (matmul dot_S512x512_S512x513_S512x513_1_0_0_1_n_n none (k0_pay2 (F := Ideal) x)
            A1 (constant (F := Ideal) S512x513 .f32 0x00000000#32))
          (broadcastTo S512x513 (shapeCast S1x513 b1 shapeCasts_S513_S1x513) broadcasts_S1x513_S512x513))
        (broadcast S512x513 (Scalar.ofBits (F := Ideal) .f32 0x00000000#32)) (ix2 p h)
      = Cert.Spec.relu (Cert.Spec.lin (fun k => x (ix2 p k)) A1 b1 h) := by
  rw [maximumf_apply, addf_apply, broadcast_apply, mmA_apply, bias_row_apply]
  rfl

/-- The confounder representation's payload at (p, j) is the specification's perceptron on row p at j: the second
    layer is Σ_h hidden[p, h]·A2[h, j] + b2[j], the hidden activations narrowed by the identity. -/
theorem pay3_at (x : FVec Ideal S512x512 .f32) (A1 : FVec Ideal S512x513 .bf16) (b1 : FVec Ideal S513 .f32)
    (A2 : FVec Ideal S513x256 .bf16) (b2 : FVec Ideal S256 .f32) (p : Fin 512) (j : Fin 256) :
    k0_pay3 (F := Ideal) x A1 b1 A2 b2 (ix2 p j) = Cert.Spec.mlp (fun k => x (ix2 p k)) A1 b1 A2 b2 j := by
  unfold k0_pay3
  rw [addf_apply, shapeCast_self, shapeCast_self, mmB_apply, bias_row_apply]
  refine congrArg (· + b2 (ix1 j)) (Finset.sum_congr rfl fun h _ => congrArg (· * A2 (ix2 h j)) ?_)
  exact hidden_at x A1 b1 p h

/-- The outcome representation's payload at (p, j): the same perceptron with the outcome weights. -/
theorem pay4_at (x : FVec Ideal S512x512 .f32) (A1 : FVec Ideal S512x513 .bf16) (b1 : FVec Ideal S513 .f32)
    (A2 : FVec Ideal S513x256 .bf16) (b2 : FVec Ideal S256 .f32) (p : Fin 512) (j : Fin 256) :
    k0_pay4 (F := Ideal) x A1 b1 A2 b2 (ix2 p j) = Cert.Spec.mlp (fun k => x (ix2 p k)) A1 b1 A2 b2 j := by
  unfold k0_pay4
  rw [addf_apply, shapeCast_self, shapeCast_self, mmB_apply, bias_row_apply]
  refine congrArg (· + b2 (ix1 j)) (Finset.sum_congr rfl fun h _ => congrArg (· * A2 (ix2 h j)) ?_)
  exact hidden_at x A1 b1 p h

/-! ## The selected prediction -/

/-- The 64 treatment heads at (p, j): Σ_k u[p, k]·hc[k, j] + Σ_k v[p, k]·ho[k, j] + bh[j], the two representations
    narrowed by the identity. -/
theorem heads_at (u v : FVec Ideal S512x256 .f32) (hc ho : FVec Ideal S256x64 .bf16) (bh : FVec Ideal S64 .f32)
    (p : Fin 512) (j : Fin 64) :
    addf (addf
          (matmul (F := Ideal) dot_S512x256_S256x64_S512x64_1_0_0_1_n_n none (k0_pay5 (F := Ideal) u) hc
            (constant (F := Ideal) S512x64 .f32 0x00000000#32))
          (matmul (F := Ideal) dot_S512x256_S256x64_S512x64_1_0_0_1_n_n none (truncf .bf16 v bitsLt_bf16_f32) ho
            (constant (F := Ideal) S512x64 .f32 0x00000000#32)))
        (broadcastTo S512x64 (shapeCast S1x64 bh shapeCasts_S64_S1x64) broadcasts_S1x64_S512x64) (ix2 p j)
      = ((∑ k : Fin 256, u (ix2 p k) * hc (ix2 k j)) + ∑ k : Fin 256, v (ix2 p k) * ho (ix2 k j)) + bh (ix1 j) := by
  rw [addf_apply, addf_apply, mmC_apply, mmC_apply, bias_row_apply]
  rfl

/-- The comparison bit of two 32-bit words, widened to 32 bits and read as a signed integer, is 1 when the words
    are equal and 0 when they are not. -/
theorem onehot_word (a c : BitVec 32) :
    FloatOps.sitofp (F := Ideal) .f32 ((IntOp.cmpi .eq a c).setWidth 32) = if a = c then (1 : EReal) else 0 := by
  by_cases h : a = c
  · have e : (IntOp.cmpi .eq a c).setWidth 32 = 1#32 := by
      show (BitVec.ofBool (a == c)).setWidth 32 = 1#32
      rw [beq_iff_eq.mpr h]
      decide
    rw [if_pos h, e]
    show (((1#32 : BitVec 32).toInt : ℝ) : EReal) = 1
    rw [show (1#32 : BitVec 32).toInt = 1 by decide, Int.cast_one, EReal.coe_one]
  · have e : (IntOp.cmpi .eq a c).setWidth 32 = 0#32 := by
      show (BitVec.ofBool (a == c)).setWidth 32 = 0#32
      rw [beq_eq_false_iff_ne.mpr h]
      decide
    rw [if_neg h, e]
    show (((0#32 : BitVec 32).toInt : ℝ) : EReal) = 0
    rw [show (0#32 : BitVec 32).toInt = 0 by decide, Int.cast_zero, EReal.coe_zero]

/-- The selection mask at (p, j): the column counter along axis 1 is the word of j, the cause column broadcast along
    the row is the row's cause, and their comparison converted to a float is the specification's indicator. -/
theorem mask_at (cz : IVec S512x1 32) (p : Fin 512) (j : Fin 64) :
    sitofp (F := Ideal) .f32 (extui 32 (cmpi .eq (iota .tc S512x64 32 [1] iota_S512x64_d1_w32)
        (broadcastTo S512x64 cz broadcasts_S512x1_S512x64)) natLt_1_32) (ix2 p j)
      = Cert.Spec.onehot (cz (ix2 p (0 : Fin 1))) j := by
  show FloatOps.sitofp (F := Ideal) .f32 ((IntOp.cmpi .eq (iota .tc S512x64 32 [1] iota_S512x64_d1_w32 (ix2 p j))
      (broadcastTo S512x64 cz broadcasts_S512x1_S512x64 (ix2 p j))).setWidth 32) = _
  rw [LibColumnOps.broadcastTo_col_apply, onehot_word]
  have hi : iota .tc S512x64 32 [1] iota_S512x64_d1_w32 (ix2 p j) = BitVec.ofNat 32 j.val := by
    show BitVec.ofNat 32 (0 * 64 + j.val) = _
    rw [Nat.zero_mul, Nat.zero_add]
  rw [hi]
  rfl

/-- The selection payload at (p, 0): Σ_j head_j·[j = cause of row p], the row sum kept as a column. -/
theorem pay6_at (u v : FVec Ideal S512x256 .f32) (hc ho : FVec Ideal S256x64 .bf16) (bh : FVec Ideal S64 .f32)
    (cz : IVec S512x1 32) (p : Fin 512) :
    k0_pay6 (F := Ideal) u v hc ho bh cz (ix2 p (0 : Fin 1))
      = ∑ j : Fin 64, (((∑ k : Fin 256, u (ix2 p k) * hc (ix2 k j)) + ∑ k : Fin 256, v (ix2 p k) * ho (ix2 k j))
          + bh (ix1 j)) * Cert.Spec.onehot (cz (ix2 p (0 : Fin 1))) j := by
  unfold k0_pay6
  rw [LibKeepdims.shapeCast_col_apply]
  refine (LibKeepdims.sum_axis1_apply _ 0x00000000#32 reduces_S512x64_S512 _ _ p).trans ?_
  refine Finset.sum_congr rfl fun j _ => ?_
  rw [mulf_apply, shapeCast_self, shapeCast_self, shapeCast_self, heads_at, mask_at]

/-- The selection output at (p, 0) is the specification's selected prediction of row p with that row's cause: the
    two head matrices are the upper and the lower 256 rows of the specification's head matrix. -/
theorem pred_at (w : Cert.Spec.Weights) (x : Vec Ideal S512x512 .f32) (cz : Vec Ideal S512x1 .i32)
    (hc ho : Vec Ideal S256x64 .bf16)
    (hhc : ∀ (k : Fin 256) (j : Fin 64), hc (ix2 k j) = w.H (ix2 (⟨k.val, by omega⟩ : Fin 512) j))
    (hho : ∀ (k : Fin 256) (j : Fin 64), ho (ix2 k j) = w.H (ix2 (⟨256 + k.val, by omega⟩ : Fin 512) j))
    (p : Fin 512) :
    k0_pay6 (F := Ideal) (k0_pay3 x w.A1c w.b1c w.A2c w.b2c) (k0_pay4 x w.A1o w.b1o w.A2o w.b2o) hc ho w.bh cz (ix2 p (0 : Fin 1))
      = Cert.Spec.predSel w (fun k => x (ix2 p k)) (cz (ix2 p (0 : Fin 1))) := by
  refine (pay6_at _ _ hc ho w.bh cz p).trans ?_
  refine Finset.sum_congr rfl fun j _ => congrArg (· * Cert.Spec.onehot (cz (ix2 p (0 : Fin 1))) j) ?_
  refine congrArg (· + w.bh (ix1 j)) ?_
  refine congrArg₂ (· + ·) (Finset.sum_congr rfl fun k _ => ?_) (Finset.sum_congr rfl fun k _ => ?_)
  · rw [pay3_at, hhc]
    rfl
  · rw [pay4_at, hho]
    rfl

/-! ## The propensity branch: a perceptron 256 → 257 → 64 whose last bias is added with the log-softmax -/

/-- The propensity perceptron without its last bias at (p, q): Σ_h max(Σ_k u[p, k]·A1[k, h] + b1[h], 0)·A2[h, q]. -/
theorem pay7_at (u : FVec Ideal S512x256 .f32) (A1 : FVec Ideal S256x257 .bf16) (b1 : FVec Ideal S257 .f32)
    (A2 : FVec Ideal S257x64 .bf16) (p : Fin 512) (q : Fin 64) :
    k0_pay7 (F := Ideal) u A1 b1 A2 (ix2 p q)
      = ∑ h : Fin 257, Cert.Spec.relu (Cert.Spec.lin (fun k => u (ix2 p k)) A1 b1 h) * A2 (ix2 h q) := by
  unfold k0_pay7
  rw [shapeCast_self, shapeCast_self, mmE_apply]
  refine Finset.sum_congr rfl fun h _ => congrArg (· * A2 (ix2 h q)) ?_
  rw [truncf_apply, maximumf_apply, addf_apply, broadcast_apply, mmD_apply, bias_row_apply]
  rfl

/-- A matrix minus its row maxima (the maximum over axis 1 from the word of −∞, kept as a column and broadcast back)
    at (p, j): the entry minus the maximum of row p. -/
theorem shifted_at (L : FVec Ideal S512x64 .f32) (hφ : FKind.Formats .f32)
    (hacc : (0xFF800000#32 : BitVec 32) = 0xFF800000#32) (p : Fin 512) (j : Fin 64) :
    subf L (broadcastTo S512x64 (shapeCast S512x1
        (multiReduction (F := Ideal) .maximumf [1] S512 L 0xFF800000#32 reduces_S512x64_S512 hφ hacc)
        shapeCasts_S512_S512x1) broadcasts_S512x1_S512x64) (ix2 p j)
      = L (ix2 p j) - Cert.Spec.rowmax (fun k => L (ix2 p k)) := by
  rw [subf_apply, LibColumnOps.broadcastTo_col_apply, LibKeepdims.shapeCast_col_apply]
  exact congrArg (L (ix2 p j) - ·) (LibColumnOps.max_axis1_apply L 0xFF800000#32 reduces_S512x64_S512 hφ hacc p)

/-- The logarithm of the row sums of the exponentials (the sum over axis 1 kept as a column, its logarithm taken
    entry by entry, broadcast back) at (p, q): log Σ_k exp S[p, k]. -/
theorem lse_at (S : FVec Ideal S512x64 .f32) (hφ : FKind.Formats .f32)
    (hacc : (0x00000000#32 : BitVec 32) = 0x00000000#32) (p : Fin 512) (q : Fin 64) :
    broadcastTo S512x64 (log (shapeCast S512x1
        (multiReduction (F := Ideal) .add [1] S512 (exp S) 0x00000000#32 reduces_S512x64_S512 hφ hacc)
        shapeCasts_S512_S512x1)) broadcasts_S512x1_S512x64 (ix2 p q)
      = Ideal.log (∑ k : Fin 64, Ideal.exp (S (ix2 p k))) := by
  rw [LibColumnOps.broadcastTo_col_apply]
  show Ideal.log (shapeCast S512x1 _ shapeCasts_S512_S512x1 (ix2 p (0 : Fin 1))) = _
  rw [LibKeepdims.shapeCast_col_apply]
  exact congrArg Ideal.log (LibKeepdims.sum_axis1_apply (exp S) 0x00000000#32 reduces_S512x64_S512 hφ hacc p)

/-- A matrix L through the log-softmax stages (row maxima subtracted, then the logarithm of the row sums of the
    exponentials subtracted) at (p, q): the specification's log-softmax of row p of L at q. -/
theorem lsm_at (L : FVec Ideal S512x64 .f32) (hφ : FKind.Formats .f32)
    (hmax : (0xFF800000#32 : BitVec 32) = 0xFF800000#32) (hsum : (0x00000000#32 : BitVec 32) = 0x00000000#32)
    (p : Fin 512) (q : Fin 64) :
    subf
        (subf L (broadcastTo S512x64 (shapeCast S512x1
          (multiReduction (F := Ideal) .maximumf [1] S512 L 0xFF800000#32 reduces_S512x64_S512 hφ hmax)
          shapeCasts_S512_S512x1) broadcasts_S512x1_S512x64))
        (broadcastTo S512x64 (log (shapeCast S512x1
          (multiReduction (F := Ideal) .add [1] S512
            (exp (subf L (broadcastTo S512x64 (shapeCast S512x1
              (multiReduction (F := Ideal) .maximumf [1] S512 L 0xFF800000#32 reduces_S512x64_S512 hφ hmax)
              shapeCasts_S512_S512x1) broadcasts_S512x1_S512x64)))
            0x00000000#32 reduces_S512x64_S512 hφ hsum)
          shapeCasts_S512_S512x1)) broadcasts_S512x1_S512x64)
        (ix2 p q)
      = Cert.Spec.lsm (fun j => L (ix2 p j)) q := by
  rw [subf_apply, lse_at, shifted_at]
  exact congrArg (fun t => (L (ix2 p q) - Cert.Spec.rowmax (fun k => L (ix2 p k))) - Ideal.log t)
    (Finset.sum_congr rfl fun k _ => congrArg Ideal.exp (shifted_at L hφ hmax p k))

/-- The log-softmax payload at (p, q) is the specification's log-softmax of the row z[p, ·] + b at q. -/
theorem pay1_at (z : FVec Ideal S512x64 .f32) (b : FVec Ideal S64 .f32) (p : Fin 512) (q : Fin 64) :
    k0_pay1 (F := Ideal) z b (ix2 p q) = Cert.Spec.lsm (fun j => z (ix2 p j) + b (ix1 j)) q := by
  unfold k0_pay1
  refine (lsm_at _ _ _ _ p q).trans ?_
  exact congrArg (fun f => Cert.Spec.lsm f q) (funext fun j => by rw [addf_apply, bias_row_apply])

/-- The propensity output at (p, q) is the specification's log-propensity of row p at q. -/
theorem prop_at (w : Cert.Spec.Weights) (x : Vec Ideal S512x512 .f32) (p : Fin 512) (q : Fin 64) :
    k0_pay1 (F := Ideal) (k0_pay7 (k0_pay3 x w.A1c w.b1c w.A2c w.b2c) w.A1p w.b1p w.A2p) w.b2p (ix2 p q)
      = Cert.Spec.logProp w (fun k => x (ix2 p k)) q := by
  refine (pay1_at _ _ p q).trans ?_
  refine congrArg (fun f => Cert.Spec.lsm f q) (funext fun j => ?_)
  refine congrArg (· + w.b2p (ix1 j)) ?_
  refine (pay7_at _ _ _ _ p j).trans ?_
  have hu : (fun k => k0_pay3 (F := Ideal) x w.A1c w.b1c w.A2c w.b2c (ix2 p k))
      = Cert.Spec.confRep w (fun k => x (ix2 p k)) := funext fun k => pay3_at x w.A1c w.b1c w.A2c w.b2c p k
  rw [hu]

end Cert.PayIsSpec

end
-- ==== Proof.KernelArray.lean ====
/-
  The two output arrays after the pipelined call.

  At grid point t the body's four trips leave, in the prediction column's block, the selected prediction of each of the
  block's 2048 rows, and in the log-propensity block the log-propensity of each row: trip k's 512 rows are rows
  512·k … of the block, for the input, the cause column and both outputs alike. Block t of every row-blocked array is
  rows 2048·t … of the array, so what point t writes back is block t of ONE function of the whole arrays; the 64 blocks
  tile the 131072 rows, so each output array ends holding that function.
-/
import proofs.«138805_j68719476736547_2_alg».proof.Proof.KernelPieces
import proofs.«138805_j68719476736547_2_alg».proof.Proof.KernelWindows
import proofs.«138805_j68719476736547_2_alg».proof.Proof.PayIsSpec

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.Sem

open Idealize.ShloMosaic.ValueIdx
open Idealize.ShloMosaic.Pipeline (Dat Cfg Window)

variable (m : (ℓ : Loc nD τ sig) → Buf (Elt Ideal) ℓ)

/-! ## The rows of a trip -/

theorem off2_0 (k : Fin k0_t1_loop.trips) : k0_off2 k 0 = k0_off1 k 0 := rfl
theorem off3_0 (k : Fin k0_t1_loop.trips) : k0_off3 k 0 = k0_off1 k 0 := rfl
theorem off1_1 (k : Fin k0_t1_loop.trips) : k0_off1 k 1 = 0 := rfl
theorem off2_1 (k : Fin k0_t1_loop.trips) : k0_off2 k 1 = 0 := rfl
theorem off3_1 (k : Fin k0_t1_loop.trips) : k0_off3 k 1 = 0 := rfl

/-! ## The biases and the weights, as the bundle's fields -/

theorem V_b1c (c : Dev nD) : (V m c main_arg3 : S513.Idx → EReal) = (W m c).b1c := V_main_arg3 m c
theorem V_b2c (c : Dev nD) : (V m c main_arg5 : S256.Idx → EReal) = (W m c).b2c := V_main_arg5 m c
theorem V_b1o (c : Dev nD) : (V m c main_arg7 : S513.Idx → EReal) = (W m c).b1o := V_main_arg7 m c
theorem V_b2o (c : Dev nD) : (V m c main_arg9 : S256.Idx → EReal) = (W m c).b2o := V_main_arg9 m c
theorem V_b1p (c : Dev nD) : (V m c main_arg11 : S257.Idx → EReal) = (W m c).b1p := V_main_arg11 m c
theorem V_b2p (c : Dev nD) : (V m c main_arg13 : S64.Idx → EReal) = (W m c).b2p := V_main_arg13 m c
theorem V_bh (c : Dev nD) : (V m c main_arg15 : S64.Idx → EReal) = (W m c).bh := V_main_arg15 m c

/-! ## One block -/

/-- The prediction column's block at point t: each row's selected prediction, of the point's input and cause blocks. -/
def predBlk (c : Dev nD) (t : Fin cfg0.N) : S2048x1.Idx → EReal := fun y =>
  Cert.Spec.predSel (W m c) (fun kk => (iblk m c 0 t : S2048x512.Idx → EReal) (ix2 (y 0) kk))
    ((iblk m c 1 t : S2048x1.Idx → BitVec 32) (ix2 (y 0) (0 : Fin 1)))

/-- The log-propensity block at point t. -/
def propBlk (c : Dev nD) (t : Fin cfg0.N) : S2048x64.Idx → EReal := fun y =>
  Cert.Spec.logProp (W m c) (fun kk => (iblk m c 0 t : S2048x512.Idx → EReal) (ix2 (y 0) kk)) (y 1)

/-- Row p of trip k's slice of the input block is row (first row of the trip) + p of the block, for every output's rows alike. -/
theorem in_row (c : Dev nD) (t : Fin cfg0.N) (k : Fin k0_t1_loop.trips) (p : Fin 512) (kk : Fin 512) (r : Fin 2048)
    (hr : r.val = k0_off1 k 0 + 1 * p.val) :
    View.ld (iblk m c 0 t : S2048x512.Idx → EReal) (rowsIn k) (ix2 p kk) = (iblk m c 0 t : S2048x512.Idx → EReal) (ix2 r kk) := by
  refine congrArg (iblk m c 0 t : S2048x512.Idx → EReal) (funext fun a => Fin.ext ?_)
  match a with
  | ⟨0, _⟩ => exact hr.symm
  | ⟨1, _⟩ =>
    show k0_off1 k 1 + 1 * kk.val = kk.val
    rw [off1_1]; omega

/-- Trip k's stored predictions are the block function on the trip's rows. -/
theorem trip_pred_eq (c : Dev nD) (t : Fin cfg0.N) (k : Fin k0_t1_loop.trips) (x : (rowsCol k).shape.Idx) :
    tripPred (F := Ideal) (View.ld (iblk m c 0 t) (rowsIn k)) (View.ld (iblk m c 1 t) (rowsCol k)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) x
      = predBlk m c t ((rowsCol k).emb x) := by
  rw [iblk_2, iblk_3, iblk_4, iblk_5, iblk_6, iblk_7, iblk_8, iblk_9, iblk_10, iblk_11, iblk_12, iblk_13, iblk_14, iblk_15, iblk_16, V_v2, V_b1c, V_v4, V_b2c, V_v6, V_b1o, V_v8, V_b2o, V_v10, V_b1p, V_v12, V_b2p, V_bh]
  obtain ⟨p, z, rfl⟩ : ∃ (p : Fin 512) (z : Fin 1), x = ix2 p z := ⟨x 0, x 1, eq_ix2 x⟩
  obtain rfl : z = 0 := Subsingleton.elim _ _
  unfold tripPred
  refine (Cert.PayIsSpec.pred_at (W m c) _ _ _ _ (V_v16 m c) (V_v18 m c) p).trans ?_
  unfold predBlk
  have e0 : ∀ kk : Fin 512, View.ld (iblk m c 0 t : S2048x512.Idx → EReal) (rowsIn k) (ix2 p kk)
      = (iblk m c 0 t : S2048x512.Idx → EReal) (ix2 (((rowsCol k).emb (ix2 p (0 : Fin 1))) 0) kk) := fun kk =>
    in_row m c t k p kk _ (by show k0_off2 k 0 + 1 * p.val = _; rw [off2_0])
  have e1 : View.ld (iblk m c 1 t : S2048x1.Idx → BitVec 32) (rowsCol k) (ix2 p (0 : Fin 1))
      = (iblk m c 1 t : S2048x1.Idx → BitVec 32) (ix2 (((rowsCol k).emb (ix2 p (0 : Fin 1))) 0) (0 : Fin 1)) := by
    refine congrArg (iblk m c 1 t : S2048x1.Idx → BitVec 32) (funext fun a => Fin.ext ?_)
    match a with
    | ⟨0, _⟩ => rfl
    | ⟨1, _⟩ =>
      show k0_off2 k 1 + 1 * 0 = 0
      rw [off2_1]
  simp only [e0, e1]

/-- Trip k's stored log-propensities are the block function on the trip's rows. -/
theorem trip_prop_eq (c : Dev nD) (t : Fin cfg0.N) (k : Fin k0_t1_loop.trips) (x : (rowsOut k).shape.Idx) :
    tripProp (F := Ideal) (View.ld (iblk m c 0 t) (rowsIn k)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) x
      = propBlk m c t ((rowsOut k).emb x) := by
  rw [iblk_2, iblk_3, iblk_4, iblk_5, iblk_6, iblk_7, iblk_8, iblk_9, iblk_10, iblk_11, iblk_12, iblk_13, iblk_14, iblk_15, iblk_16, V_v2, V_b1c, V_v4, V_b2c, V_v6, V_b1o, V_v8, V_b2o, V_v10, V_b1p, V_v12, V_b2p, V_bh]
  obtain ⟨p, q, rfl⟩ : ∃ (p : Fin 512) (q : Fin 64), x = ix2 p q := ⟨x 0, x 1, eq_ix2 x⟩
  unfold tripProp
  refine (Cert.PayIsSpec.prop_at (W m c) _ p q).trans ?_
  unfold propBlk
  have e0 : ∀ kk : Fin 512, View.ld (iblk m c 0 t : S2048x512.Idx → EReal) (rowsIn k) (ix2 p kk)
      = (iblk m c 0 t : S2048x512.Idx → EReal) (ix2 (((rowsOut k).emb (ix2 p q)) 0) kk) := fun kk =>
    in_row m c t k p kk _ (by show k0_off3 k 0 + 1 * p.val = _; rw [off3_0])
  have e1 : (((rowsOut k).emb (ix2 p q)) 1 : Fin 64) = q := Fin.ext (by
    show k0_off3 k 1 + 1 * q.val = q.val
    rw [off3_1]; omega)
  simp only [e0, e1]

/-! ## The arrays -/

/-- The prediction column after the call: every row's selected prediction, of the argument arrays. -/
abbrev G17 (c : Dev nD) : S131072x1.Idx → EReal :=
  Cert.Spec.predArr (W m c) (m ((c : Thread nD τ).loc main_arg0)) (m ((c : Thread nD τ).loc main_arg1))

/-- The log-propensity array after the call. -/
abbrev G18 (c : Dev nD) : S131072x64.Idx → EReal :=
  Cert.Spec.propArr (W m c) (m ((c : Thread nD τ).loc main_arg0))

/-- What grid point t writes back into the prediction column: block t of the array function. -/
theorem flushed17_eq (c : Dev nD) (t : Fin cfg0.N) :
    (dats m 0 c).flushed 17 t = ((cfg0.win 17).blk t).view.read (Elt Ideal) (G17 m c) := by
  show (cfg0.win 17).cut (grid0.coords t) ((dats m 0 c).after 17 t) = _
  rw [after0_17]
  unfold outsAt0
  dsimp only
  rw [block_pred c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (predBlk m c t) (trip_pred_eq m c t)]
  funext j
  show predBlk m c t j = G17 m c (((cfg0.win 17).blk t).view.emb j)
  have e0 : ∀ kk : Fin 512, (iblk m c 0 t : S2048x512.Idx → EReal) (ix2 (j 0) kk)
      = m ((c : Thread nD τ).loc main_arg0) (ix2 ((((cfg0.win 17).blk t).view.emb j) 0) kk) := by
    intro kk
    show V m c main_arg0 (((cfg0.win 0).blk t).view.emb (ix2 (j 0) kk)) = _
    rw [V_main_arg0]
    refine congrArg _ (funext fun a => Fin.ext ?_)
    match a with
    | ⟨0, _⟩ =>
      show win0_0.index t (0 : Fin 2) * 2048 + 1 * (j 0).val = win0_17.index t (0 : Fin 2) * 2048 + 1 * (j 0).val
      rw [(idx_facts t).1, (idx_facts t).2.2.2.2.1]
    | ⟨1, _⟩ =>
      show win0_0.index t (1 : Fin 2) * 512 + 1 * kk.val = kk.val
      rw [(idx_facts t).2.1]; omega
  have e1 : (iblk m c 1 t : S2048x1.Idx → BitVec 32) (ix2 (j 0) (0 : Fin 1))
      = m ((c : Thread nD τ).loc main_arg1) (ix1 ((((cfg0.win 17).blk t).view.emb j) 0)) := by
    show V m c main_v0 (((cfg0.win 1).blk t).view.emb (ix2 (j 0) (0 : Fin 1))) = _
    have e : ((cfg0.win 1).blk t).view.emb (ix2 (j 0) (0 : Fin 1)) = ix2 ((((cfg0.win 17).blk t).view.emb j) 0) (0 : Fin 1) := by
      funext a; apply Fin.ext
      match a with
      | ⟨0, _⟩ =>
        show win0_1.index t (0 : Fin 2) * 2048 + 1 * (j 0).val = win0_17.index t (0 : Fin 2) * 2048 + 1 * (j 0).val
        rw [(idx_facts t).2.2.1, (idx_facts t).2.2.2.2.1]
      | ⟨1, _⟩ =>
        show win0_1.index t (1 : Fin 2) * 1 + 1 * 0 = 0
        rw [(idx_facts t).2.2.2.1]
    rw [e]
    exact V_v0 m c _ _
  unfold predBlk G17 Cert.Spec.predArr
  simp only [e0, e1]

/-- An index of the array is in point t's block iff each coordinate is in the block's range on its axis. -/
theorem mem_blk17 (t : Fin cfg0.N) (i : S131072x1.Idx) :
    i ∈ ((cfg0.win 17).blk t).view.set ↔ ∀ a : Fin 2, win0_17.index t a * S2048x1.size a ≤ (i a).val ∧ (i a).val < win0_17.index t a * S2048x1.size a + S2048x1.size a := by
  show i ∈ ((View.whole main_v19_0).slice (win0_17.rect t)).set ↔ _
  rw [View.set_slice_whole, Rect.mem_set_unit]
  exact Iff.rfl

/-- The 64 blocks tile the rows: row r is in block r / 2048. -/
theorem cover17 (i : S131072x1.Idx) : ∃ t : Fin cfg0.N, (cfg0.win 17).flush t = true ∧ i ∈ ((cfg0.win 17).blk t).view.set := by
  have hi0 : (i 0).val < 131072 := (i 0).isLt
  have hi1 : (i 1).val < 1 := (i 1).isLt
  obtain ⟨t, ht⟩ : ∃ t : Fin cfg0.N, t.val = (i 0).val / 2048 := ⟨⟨(i 0).val / 2048, by show _ < 64; omega⟩, rfl⟩
  refine ⟨t, flush0_17 t, ?_⟩
  rw [mem_blk17]
  intro a
  match a with
  | ⟨0, _⟩ =>
    show win0_17.index t (0 : Fin 2) * 2048 ≤ (i 0).val ∧ (i 0).val < win0_17.index t (0 : Fin 2) * 2048 + 2048
    rw [(idx_facts t).2.2.2.2.1]; omega
  | ⟨1, _⟩ =>
    show win0_17.index t (1 : Fin 2) * 1 ≤ (i 1).val ∧ (i 1).val < win0_17.index t (1 : Fin 2) * 1 + 1
    rw [(idx_facts t).2.2.2.2.2.1]; omega

/-- The array after the call. -/
theorem final17 (c : Dev nD) : (dats m 0 c).arrAt 17 cfg0.N = G17 m c :=
  (dats m 0 c).arrAt_eq_of_cover 17 (G17 m c) (fun t _ => flushed17_eq m c t) cover17

/-- What grid point t writes back into the log-propensity array: block t of the array function. -/
theorem flushed18_eq (c : Dev nD) (t : Fin cfg0.N) :
    (dats m 0 c).flushed 18 t = ((cfg0.win 18).blk t).view.read (Elt Ideal) (G18 m c) := by
  show (cfg0.win 18).cut (grid0.coords t) ((dats m 0 c).after 18 t) = _
  rw [after0_18]
  unfold outsAt0
  dsimp only
  rw [block_prop c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (propBlk m c t) (trip_prop_eq m c t)]
  funext j
  show propBlk m c t j = G18 m c (((cfg0.win 18).blk t).view.emb j)
  have e0 : ∀ kk : Fin 512, (iblk m c 0 t : S2048x512.Idx → EReal) (ix2 (j 0) kk)
      = m ((c : Thread nD τ).loc main_arg0) (ix2 ((((cfg0.win 18).blk t).view.emb j) 0) kk) := by
    intro kk
    show V m c main_arg0 (((cfg0.win 0).blk t).view.emb (ix2 (j 0) kk)) = _
    rw [V_main_arg0]
    refine congrArg _ (funext fun a => Fin.ext ?_)
    match a with
    | ⟨0, _⟩ =>
      show win0_0.index t (0 : Fin 2) * 2048 + 1 * (j 0).val = win0_18.index t (0 : Fin 2) * 2048 + 1 * (j 0).val
      rw [(idx_facts t).1, (idx_facts t).2.2.2.2.2.2.1]
    | ⟨1, _⟩ =>
      show win0_0.index t (1 : Fin 2) * 512 + 1 * kk.val = kk.val
      rw [(idx_facts t).2.1]; omega
  have e1 : ((((cfg0.win 18).blk t).view.emb j) 1 : Fin 64) = j 1 := Fin.ext (by
    show win0_18.index t (1 : Fin 2) * 64 + 1 * (j 1).val = (j 1).val
    rw [(idx_facts t).2.2.2.2.2.2.2.1]; omega)
  unfold propBlk G18 Cert.Spec.propArr
  simp only [e0, e1]

/-- An index of the array is in point t's block iff each coordinate is in the block's range on its axis. -/
theorem mem_blk18 (t : Fin cfg0.N) (i : S131072x64.Idx) :
    i ∈ ((cfg0.win 18).blk t).view.set ↔ ∀ a : Fin 2, win0_18.index t a * S2048x64.size a ≤ (i a).val ∧ (i a).val < win0_18.index t a * S2048x64.size a + S2048x64.size a := by
  show i ∈ ((View.whole main_v19_1).slice (win0_18.rect t)).set ↔ _
  rw [View.set_slice_whole, Rect.mem_set_unit]
  exact Iff.rfl

/-- The 64 blocks tile the rows: row r is in block r / 2048. -/
theorem cover18 (i : S131072x64.Idx) : ∃ t : Fin cfg0.N, (cfg0.win 18).flush t = true ∧ i ∈ ((cfg0.win 18).blk t).view.set := by
  have hi0 : (i 0).val < 131072 := (i 0).isLt
  have hi1 : (i 1).val < 64 := (i 1).isLt
  obtain ⟨t, ht⟩ : ∃ t : Fin cfg0.N, t.val = (i 0).val / 2048 := ⟨⟨(i 0).val / 2048, by show _ < 64; omega⟩, rfl⟩
  refine ⟨t, flush0_18 t, ?_⟩
  rw [mem_blk18]
  intro a
  match a with
  | ⟨0, _⟩ =>
    show win0_18.index t (0 : Fin 2) * 2048 ≤ (i 0).val ∧ (i 0).val < win0_18.index t (0 : Fin 2) * 2048 + 2048
    rw [(idx_facts t).2.2.2.2.2.2.1]; omega
  | ⟨1, _⟩ =>
    show win0_18.index t (1 : Fin 2) * 64 ≤ (i 1).val ∧ (i 1).val < win0_18.index t (1 : Fin 2) * 64 + 64
    rw [(idx_facts t).2.2.2.2.2.2.2.1]; omega

/-- The array after the call. -/
theorem final18 (c : Dev nD) : (dats m 0 c).arrAt 18 cfg0.N = G18 m c :=
  (dats m 0 c).arrAt_eq_of_cover 18 (G18 m c) (fun t _ => flushed18_eq m c t) cover18

end Cert.KernelValue

end
-- ==== Proof.KernelRun.lean ====
/-
  The kernel's whole program, run: the pipelined call leaves the two output arrays at their functions of the arguments,
  the one host line after the call writes the constant zero, the cause vector is returned as it was given, and no
  argument array changes.
-/
import proofs.«138805_j68719476736547_2_alg».proof.Proof.KernelArray

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.Sem

open Idealize.ShloMosaic.ValueIdx
open Idealize.ShloMosaic.Pipeline (Dat Cfg Window)

variable (m : (ℓ : Loc nD τ sig) → Buf (Elt Ideal) ℓ) (ρ : Dev nD → PrngReg)

/-- The host line after the call writes the f32 word of zero into its scalar buffer. -/
theorem tail_cst (c : Dev nD) :
    Pipeline.afterTail₀ cfgs (dats m) 0 (V0 m) [hostOps1] c main_cst = constant (F := Ideal) S_ .f32 0x00000000#32 := by
  unfold Pipeline.afterTail₀
  show StableHlo.after hostOps1 _ (Proc.devRef .tc main_cst) = _
  after_results

set_option maxHeartbeats 1600000 in
/-- Every weakly fair execution of the kernel's program terminates with the prediction column and the log-propensity
    array at the specification's arrays of the arguments, the scalar at zero, and every argument as given. -/
theorem run : θ_run defs (onTc (τ := τ) (main (F := Ideal))) ⟨m, fun _ => 0, ρ⟩ (fun r => ∀ c : Dev nD,
      r.2.mem ((c.tc : Thread nD τ).loc main_v19_0) = G17 m c
      ∧ r.2.mem ((c.tc : Thread nD τ).loc main_v19_1) = G18 m c
      ∧ r.2.mem ((c.tc : Thread nD τ).loc main_cst) = constant (F := Ideal) S_ .f32 0x00000000#32
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 17).trans (final17 m c),
      ((h c).1 18).trans (final18 m c),
      ((h c).2 main_cst (Pipeline.mem_restRefs_of main_cst (by decide) (by decide))).trans (tail_cst m c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c),
      ((h c).1 13).trans (((dats m 0 c).arrAt_in 13 rfl _).trans ((A_eq m c 13).trans (V_main_arg13 m c))),
      ((h c).2 main_arg14 (Pipeline.mem_restRefs_of main_arg14 (by decide) (by decide))).trans (W_main_arg14 m (dats m) c),
      ((h c).1 16).trans (((dats m 0 c).arrAt_in 16 rfl _).trans ((A_eq m c 16).trans (V_main_arg15 m c)))⟩)
    (run_main m ρ)

end Cert.KernelValue

end
-- ==== Proof.LibIndexEq.lean ====
/-
  An index of a one- or two-axis shape is determined by its coordinates: if the coordinates of `f` are those of
  `a` (and `b`), then `f` is the index built from them. Used to identify an index that a program spells by a
  case split on the axis with the index built from literal coordinates.
-/
import Idealize.ShloMosaic.Lib.ValueIdx

namespace LibIndexEq

open Idealize.ShloMosaic Idealize.ShloMosaic.ValueIdx

/-- A two-axis index with coordinates `a` and `b` is `ix2 a b`. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A one-axis index with coordinate `a` is `ix1 a`. -/
theorem idx1_eq {n : ℕ} (f : (⟨1, ![n]⟩ : Shape).Idx) (a : Fin n) (h0 : (f 0).val = a.val) : f = ix1 a :=
  funext fun d => Fin.ext (by
    match d with
    | ⟨0, _⟩ => exact h0)

end LibIndexEq
-- ==== Proof.RefIsSpec.lean ====
/-
  The reference program's two results, as functions of its arguments on the extended reals, are the specification's
  arrays: the selected treatment-head prediction and the log-propensity, row by row.

  Each stage of the reference is read at one index (r, j): a matrix product is the sum over the contracted place, a
  broadcast bias is the bias at j, the rectifier is the maximum with the zero word. The weight matrices enter already
  transposed, exactly as the specification's weight bundle holds them.
-/
import proofs.«138805_j68719476736547_2_alg».proof.Proof.RefRead
import proofs.«138805_j68719476736547_2_alg».proof.Proof.Weights
import proofs.«138805_j68719476736547_2_alg».proof.Proof.LibIndexEq
import Idealize.ShloMosaic.PureOps.Reduce

noncomputable section

namespace Cert.RefIsSpec

open Cert.ReferenceIdeal Cert.ReferenceIdeal.Gen Cert.ReferenceIdeal.ReadP Idealize.ShloMosaic Idealize.ShloMosaic.ValueIdx
open scoped BigOperators

/-! ## Indices the stages use, as indices built from coordinates -/

/-- A two-axis index given by a case split on the axis is the index built from its two coordinates. -/
theorem mk2 {n0 n1 : ℕ} (f : (⟨2, ![n0, n1]⟩ : Shape).Idx) (a : Fin n0) (b : Fin n1)
    (h0 : (f 0).val = a.val) (h1 : (f 1).val = b.val) : f = ix2 a b := LibIndexEq.idx2_eq f a b h0 h1

/-- A one-axis index given by a case split on the axis is the index built from its coordinate. -/
theorem mk1 {n : ℕ} (f : (⟨1, ![n]⟩ : Shape).Idx) (a : Fin n) (h0 : (f 0).val = a.val) : f = ix1 a :=
  LibIndexEq.idx1_eq f a h0

/-! ## The confounder perceptron -/

/-- The hidden layer of the confounder perceptron at (r, h): the rectified affine image of row r. -/
theorem hidden_c (x0 : (⟨S131072x512, .f32⟩ : BufTy).Contents (Elt Ideal)) (x2 : (⟨S513x512, .f32⟩ : BufTy).Contents (Elt Ideal)) (x3 : (⟨S513, .f32⟩ : BufTy).Contents (Elt Ideal)) (r : Fin 131072) (h : Fin 513) :
    val_main_v5 (F := Ideal) x0 x2 x3 (ix2 r h)
      = Cert.Spec.relu (Cert.Spec.lin (fun k => x0 (ix2 r k)) (val_main_v0 (F := Ideal) x2) x3 h) := by
  rw [val_main_v5_apply, val_main_v4_apply, val_main_v1_apply, val_main_v3_apply, val_main_v2_apply,
    val_main_call0_v0_apply, val_main_call0_cst_apply]
  have el : ∀ k : Fin 512, lidx_main_v1 (ix2 r h) k = ix2 r k := fun k => mk2 _ _ _ rfl rfl
  have er : ∀ k : Fin 512, ridx_main_v1 (ix2 r h) k = ix2 k h := fun k => mk2 _ _ _ rfl rfl
  have eb : idx_main_v2 (idx_main_v3 (ix2 r h)) = ix1 h := mk1 _ _ rfl
  simp only [el, er, eb]
  rfl

/-- The confounder representation at (r, j): the two-layer perceptron of row r. -/
theorem rep_c (x0 : (⟨S131072x512, .f32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (r : Fin 131072) (j : Fin 256) :
    val_main_v10 (F := Ideal) x0 x2 x3 x4 x5 (ix2 r j)
      = Cert.Spec.mlp (fun k => x0 (ix2 r k)) (val_main_v0 (F := Ideal) x2) x3 (val_main_v6 (F := Ideal) x4) x5 j := by
  rw [val_main_v10_apply, val_main_v7_apply, val_main_v9_apply, val_main_v8_apply]
  have el : ∀ k : Fin 513, lidx_main_v7 (ix2 r j) k = ix2 r k := fun k => mk2 _ _ _ rfl rfl
  have er : ∀ k : Fin 513, ridx_main_v7 (ix2 r j) k = ix2 k j := fun k => mk2 _ _ _ rfl rfl
  have eb : idx_main_v8 (idx_main_v9 (ix2 r j)) = ix1 j := mk1 _ _ rfl
  simp only [el, er, eb, hidden_c]
  rfl

/-! ## The outcome perceptron -/

/-- The hidden layer of the outcome perceptron at (r, h). -/
theorem hidden_o (x0 : (⟨S131072x512, .f32⟩ : BufTy).Contents (Elt Ideal)) (x6 : (⟨S513x512, .f32⟩ : BufTy).Contents (Elt Ideal)) (x7 : (⟨S513, .f32⟩ : BufTy).Contents (Elt Ideal)) (r : Fin 131072) (h : Fin 513) :
    val_main_v16 (F := Ideal) x0 x6 x7 (ix2 r h)
      = Cert.Spec.relu (Cert.Spec.lin (fun k => x0 (ix2 r k)) (val_main_v11 (F := Ideal) x6) x7 h) := by
  rw [val_main_v16_apply, val_main_v15_apply, val_main_v12_apply, val_main_v14_apply, val_main_v13_apply,
    val_main_call1_v0_apply, val_main_call1_cst_apply]
  have el : ∀ k : Fin 512, lidx_main_v12 (ix2 r h) k = ix2 r k := fun k => mk2 _ _ _ rfl rfl
  have er : ∀ k : Fin 512, ridx_main_v12 (ix2 r h) k = ix2 k h := fun k => mk2 _ _ _ rfl rfl
  have eb : idx_main_v13 (idx_main_v14 (ix2 r h)) = ix1 h := mk1 _ _ rfl
  simp only [el, er, eb]
  rfl

/-- The outcome representation at (r, j). -/
theorem rep_o (x0 : (⟨S131072x512, .f32⟩ : BufTy).Contents (Elt Ideal)) (x6 : (⟨S513x512, .f32⟩ : BufTy).Contents (Elt Ideal)) (x7 : (⟨S513, .f32⟩ : BufTy).Contents (Elt Ideal)) (x8 : (⟨S256x513, .f32⟩ : BufTy).Contents (Elt Ideal)) (x9 : (⟨S256, .f32⟩ : BufTy).Contents (Elt Ideal)) (r : Fin 131072) (j : Fin 256) :
    val_main_v21 (F := Ideal) x0 x6 x7 x8 x9 (ix2 r j)
      = Cert.Spec.mlp (fun k => x0 (ix2 r k)) (val_main_v11 (F := Ideal) x6) x7 (val_main_v17 (F := Ideal) x8) x9 j := by
  rw [val_main_v21_apply, val_main_v18_apply, val_main_v20_apply, val_main_v19_apply]
  have el : ∀ k : Fin 513, lidx_main_v18 (ix2 r j) k = ix2 r k := fun k => mk2 _ _ _ rfl rfl
  have er : ∀ k : Fin 513, ridx_main_v18 (ix2 r j) k = ix2 k j := fun k => mk2 _ _ _ rfl rfl
  have eb : idx_main_v19 (idx_main_v20 (ix2 r j)) = ix1 j := mk1 _ _ rfl
  simp only [el, er, eb, hidden_o]
  rfl

/-! ## The treatment heads on the joined pair -/

/-- The joined pair at (r, k), k among the first 256 places, is the confounder representation there. -/
theorem cat_left (x0 : (⟨S131072x512, .f32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x6 : (⟨S513x512, .f32⟩ : BufTy).Contents (Elt Ideal)) (x7 : (⟨S513, .f32⟩ : BufTy).Contents (Elt Ideal)) (x8 : (⟨S256x513, .f32⟩ : BufTy).Contents (Elt Ideal)) (x9 : (⟨S256, .f32⟩ : BufTy).Contents (Elt Ideal)) (r : Fin 131072) (k : Fin 256) :
    val_main_v22 (F := Ideal) x0 x2 x3 x4 x5 x6 x7 x8 x9 (ix2 r (⟨k.val, by omega⟩ : Fin 512))
      = val_main_v10 (F := Ideal) x0 x2 x3 x4 x5 (ix2 r k) := by
  unfold val_main_v22
  exact concatenate_pair_apply_left (1 : Fin S131072x512.rank) _ _ concatenates_S131072x256_S131072x256_S131072x512_d1 _ rfl
    (ix2 r k) (fun b => match b with | ⟨0, _⟩ => rfl | ⟨1, _⟩ => rfl)

/-- The joined pair at (r, 256 + k) is the outcome representation at (r, k). -/
theorem cat_right (x0 : (⟨S131072x512, .f32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x6 : (⟨S513x512, .f32⟩ : BufTy).Contents (Elt Ideal)) (x7 : (⟨S513, .f32⟩ : BufTy).Contents (Elt Ideal)) (x8 : (⟨S256x513, .f32⟩ : BufTy).Contents (Elt Ideal)) (x9 : (⟨S256, .f32⟩ : BufTy).Contents (Elt Ideal)) (r : Fin 131072) (k : Fin 256) :
    val_main_v22 (F := Ideal) x0 x2 x3 x4 x5 x6 x7 x8 x9 (ix2 r (⟨256 + k.val, by omega⟩ : Fin 512))
      = val_main_v21 (F := Ideal) x0 x6 x7 x8 x9 (ix2 r k) := by
  unfold val_main_v22
  exact concatenate_pair_apply_right (1 : Fin S131072x512.rank) _ _ concatenates_S131072x256_S131072x256_S131072x512_d1 _ rfl rfl
    (ix2 r k) (fun b => match b with | ⟨0, _⟩ => fun _ => rfl | ⟨1, _⟩ => fun hb => absurd rfl hb)
    (by show k.val + 256 = 256 + k.val; omega)

/-- The 64 treatment heads at (r, j): the upper half of the head matrix meets the confounder representation, the
    lower half the outcome representation. -/
theorem heads_rj (x0 : (⟨S131072x512, .f32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x6 : (⟨S513x512, .f32⟩ : BufTy).Contents (Elt Ideal)) (x7 : (⟨S513, .f32⟩ : BufTy).Contents (Elt Ideal)) (x8 : (⟨S256x513, .f32⟩ : BufTy).Contents (Elt Ideal)) (x9 : (⟨S256, .f32⟩ : BufTy).Contents (Elt Ideal)) (x14 : (⟨S64x512, .f32⟩ : BufTy).Contents (Elt Ideal)) (x15 : (⟨S64, .f32⟩ : BufTy).Contents (Elt Ideal)) (r : Fin 131072) (j : Fin 64) :
    val_main_v27 (F := Ideal) x0 x2 x3 x4 x5 x6 x7 x8 x9 x14 x15 (ix2 r j)
      = Cert.Spec.head (fun k => val_main_v10 (F := Ideal) x0 x2 x3 x4 x5 (ix2 r k))
          (fun k => val_main_v21 (F := Ideal) x0 x6 x7 x8 x9 (ix2 r k)) (val_main_v23 (F := Ideal) x14) x15 j := by
  rw [val_main_v27_apply, val_main_v24_apply, val_main_v26_apply, val_main_v25_apply]
  have el : ∀ k : Fin 512, lidx_main_v24 (ix2 r j) k = ix2 r k := fun k => mk2 _ _ _ rfl rfl
  have er : ∀ k : Fin 512, ridx_main_v24 (ix2 r j) k = ix2 k j := fun k => mk2 _ _ _ rfl rfl
  have eb : idx_main_v25 (idx_main_v26 (ix2 r j)) = ix1 j := mk1 _ _ rfl
  simp only [el, er, eb]
  rw [Cert.Spec.sum_halves]
  simp only [cat_left, cat_right]
  rfl

/-! ## The one-hot mask and the selected prediction -/

/-- A one-bit word read as an unsigned number is 1 for the set bit, 0 otherwise. -/
theorem uitofp_ofBool (b : Bool) :
    FloatOps.uitofp (F := Ideal) .f32 (BitVec.ofBool b) = if b = true then (1 : EReal) else 0 := by
  cases b
  · show (((BitVec.ofBool false).toNat : ℝ) : EReal) = _
    simp
  · show (((BitVec.ofBool true).toNat : ℝ) : EReal) = _
    simp

/-- The mask at (r, j): 1 when j, as a 32-bit word, is the row's cause, else 0. -/
theorem mask_rj (x1 : (⟨S131072, .i32⟩ : BufTy).Contents (Elt Ideal)) (r : Fin 131072) (j : Fin 64) :
    val_main_v28 (F := Ideal) x1 (ix2 r j) = Cert.Spec.onehot (x1 (ix1 r)) j := by
  rw [val_main_v28_apply, val_main_call2_v4_apply, val_main_call2_v2_apply, val_main_call2_v0_apply,
    val_main_call2_v3_apply, val_main_call2_v1_apply]
  have e1 : idx_main_call2_v0 (idx_main_call2_v2 (ix2 r j)) = ix1 r := mk1 _ _ rfl
  rw [e1]
  show FloatOps.uitofp (F := Ideal) .f32 (BitVec.ofBool (x1 (ix1 r) == BitVec.ofNat 32 j.val)) = _
  rw [uitofp_ofBool]
  unfold Cert.Spec.onehot
  simp only [beq_iff_eq]
  exact if_congr eq_comm rfl rfl

/-- The selected prediction of row r: the sum over the heads of head times mask, from the zero word. -/
theorem pred_r (x0 : (⟨S131072x512, .f32⟩ : BufTy).Contents (Elt Ideal)) (x1 : (⟨S131072, .i32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x6 : (⟨S513x512, .f32⟩ : BufTy).Contents (Elt Ideal)) (x7 : (⟨S513, .f32⟩ : BufTy).Contents (Elt Ideal)) (x8 : (⟨S256x513, .f32⟩ : BufTy).Contents (Elt Ideal)) (x9 : (⟨S256, .f32⟩ : BufTy).Contents (Elt Ideal)) (x14 : (⟨S64x512, .f32⟩ : BufTy).Contents (Elt Ideal)) (x15 : (⟨S64, .f32⟩ : BufTy).Contents (Elt Ideal)) (r : Fin 131072) (z : Fin 1) :
    val_main_v31 (F := Ideal) x0 x1 x2 x3 x4 x5 x6 x7 x8 x9 x14 x15 (ix2 r z)
      = ∑ j : Fin 64, val_main_v27 (F := Ideal) x0 x2 x3 x4 x5 x6 x7 x8 x9 x14 x15 (ix2 r j)
          * val_main_v28 (F := Ideal) x1 (ix2 r j) := by
  rw [val_main_v31_apply, val_main_v30_apply, val_main_cst_apply]
  have e2 : ∀ k : Fin 64, idx_main_v30 (idx_main_v31 (ix2 r z)) k = ix2 r k := fun k => mk2 _ _ _ rfl rfl
  simp only [e2, val_main_v29_apply]
  rw [Ideal.ofBits_def, Ideal.ofBits_zero_f32, zero_add]
  rfl

/-! ## The propensity perceptron -/

/-- The hidden layer of the propensity perceptron at (r, h), on the confounder representation of row r. -/
theorem hidden_p (x0 : (⟨S131072x512, .f32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x10 : (⟨S257x256, .f32⟩ : BufTy).Contents (Elt Ideal)) (x11 : (⟨S257, .f32⟩ : BufTy).Contents (Elt Ideal)) (r : Fin 131072) (h : Fin 257) :
    val_main_v37 (F := Ideal) x0 x2 x3 x4 x5 x10 x11 (ix2 r h)
      = Cert.Spec.relu (Cert.Spec.lin (fun k => val_main_v10 (F := Ideal) x0 x2 x3 x4 x5 (ix2 r k))
          (val_main_v32 (F := Ideal) x10) x11 h) := by
  rw [val_main_v37_apply, val_main_v36_apply, val_main_v33_apply, val_main_v35_apply, val_main_v34_apply,
    val_main_call3_v0_apply, val_main_call3_cst_apply]
  have el : ∀ k : Fin 256, lidx_main_v33 (ix2 r h) k = ix2 r k := fun k => mk2 _ _ _ rfl rfl
  have er : ∀ k : Fin 256, ridx_main_v33 (ix2 r h) k = ix2 k h := fun k => mk2 _ _ _ rfl rfl
  have eb : idx_main_v34 (idx_main_v35 (ix2 r h)) = ix1 h := mk1 _ _ rfl
  simp only [el, er, eb]
  rfl

/-- The propensity logits at (r, j). -/
theorem logits_rj (x0 : (⟨S131072x512, .f32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x10 : (⟨S257x256, .f32⟩ : BufTy).Contents (Elt Ideal)) (x11 : (⟨S257, .f32⟩ : BufTy).Contents (Elt Ideal)) (x12 : (⟨S64x257, .f32⟩ : BufTy).Contents (Elt Ideal)) (x13 : (⟨S64, .f32⟩ : BufTy).Contents (Elt Ideal)) (r : Fin 131072) (j : Fin 64) :
    val_main_v42 (F := Ideal) x0 x2 x3 x4 x5 x10 x11 x12 x13 (ix2 r j)
      = Cert.Spec.mlp (fun k => val_main_v10 (F := Ideal) x0 x2 x3 x4 x5 (ix2 r k)) (val_main_v32 (F := Ideal) x10) x11
          (val_main_v38 (F := Ideal) x12) x13 j := by
  rw [val_main_v42_apply, val_main_v39_apply, val_main_v41_apply, val_main_v40_apply]
  have el : ∀ k : Fin 257, lidx_main_v39 (ix2 r j) k = ix2 r k := fun k => mk2 _ _ _ rfl rfl
  have er : ∀ k : Fin 257, ridx_main_v39 (ix2 r j) k = ix2 k j := fun k => mk2 _ _ _ rfl rfl
  have eb : idx_main_v40 (idx_main_v41 (ix2 r j)) = ix1 j := mk1 _ _ rfl
  simp only [el, er, eb, hidden_p]
  rfl

/-! ## The log-softmax -/

/-- Row r of a 131072 × 64 array with the dropped column coordinate k put back is (r, k). -/
theorem lift_row (h : S131072x64.Reduces [1] S131072) (r : Fin 131072) (k : Fin (S131072x64.size 1)) :
    h.lift (ix1 r) k = ix2 r (⟨k.val, k.isLt⟩ : Fin 64) := by
  funext c; apply Fin.ext
  fin_cases c <;> rfl

/-- The maximum from −∞ over the columns of row r, as the program's reduction computes it, is the specification's
    row maximum. -/
theorem hostMax_row (y : (⟨S131072x64, .f32⟩ : BufTy).Contents (Elt Ideal)) (r : Fin 131072) :
    Host.reduce (FloatOps.maximumf (F := Ideal) (φ := .f32)) y (val_main_call4_cst (F := Ideal)) reducesTo_S131072x64_S131072_d1 h_S_
        (ix1 r)
      = Cert.Spec.rowmax (fun k : Fin 64 => y (ix2 r k)) := by
  have h : S131072x64.Reduces [1] S131072 := by decide
  rw [Host.reduce_eq_fold_single (FloatOps.maximumf (F := Ideal) (φ := .f32)) y _ reducesTo_S131072x64_S131072_d1 h h_S_]
  have hf : (y ∘ h.lift (ix1 r)) = fun k : Fin 64 => y (ix2 r k) := funext fun k => congrArg y (lift_row h r k)
  rw [hf]
  rfl

/-- The larger of the starting value and a maximum taken from that starting value is that maximum. -/
theorem max_fold_self {N : ℕ} (b : EReal) (f : Fin N → EReal) :
    max b ((Finset.univ : Finset (Fin N)).fold max b f) = (Finset.univ : Finset (Fin N)).fold max b f :=
  max_eq_right ((Finset.le_fold_max b).2 (Or.inl le_rfl))

/-- The shifted logits at (r, j): the logit less the row's maximum. -/
theorem shifted_rj (x0 : (⟨S131072x512, .f32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x10 : (⟨S257x256, .f32⟩ : BufTy).Contents (Elt Ideal)) (x11 : (⟨S257, .f32⟩ : BufTy).Contents (Elt Ideal)) (x12 : (⟨S64x257, .f32⟩ : BufTy).Contents (Elt Ideal)) (x13 : (⟨S64, .f32⟩ : BufTy).Contents (Elt Ideal)) (r : Fin 131072) (j : Fin 64) :
    val_main_call4_v5 (F := Ideal) x0 x2 x3 x4 x5 x10 x11 x12 x13 (ix2 r j)
      = val_main_v42 (F := Ideal) x0 x2 x3 x4 x5 x10 x11 x12 x13 (ix2 r j)
          - Cert.Spec.rowmax (fun k : Fin 64 => val_main_v42 (F := Ideal) x0 x2 x3 x4 x5 x10 x11 x12 x13 (ix2 r k)) := by
  rw [val_main_call4_v5_apply, val_main_call4_v4_apply, val_main_call4_v3_apply, val_main_call4_v2_apply,
    val_main_call4_v1_apply, val_main_call4_cst_0_apply]
  have e : idx_main_call4_v3 (idx_main_call4_v4 (ix2 r j)) = ix1 r := mk1 _ _ rfl
  rw [e]
  unfold val_main_call4_v0
  rw [hostMax_row]
  show _ - max (Ideal.ofBits .f32 0xFF800000#32) (Cert.Spec.rowmax _) = _
  unfold Cert.Spec.rowmax
  rw [max_fold_self]

/-- The log-softmax at (r, j), on the logits of row r. -/
theorem lsm_rj (x0 : (⟨S131072x512, .f32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x10 : (⟨S257x256, .f32⟩ : BufTy).Contents (Elt Ideal)) (x11 : (⟨S257, .f32⟩ : BufTy).Contents (Elt Ideal)) (x12 : (⟨S64x257, .f32⟩ : BufTy).Contents (Elt Ideal)) (x13 : (⟨S64, .f32⟩ : BufTy).Contents (Elt Ideal)) (r : Fin 131072) (j : Fin 64) :
    val_main_v43 (F := Ideal) x0 x2 x3 x4 x5 x10 x11 x12 x13 (ix2 r j)
      = Cert.Spec.lsm (fun k : Fin 64 => val_main_v42 (F := Ideal) x0 x2 x3 x4 x5 x10 x11 x12 x13 (ix2 r k)) j := by
  rw [val_main_v43_apply, val_main_call4_v10_apply, val_main_call4_v9_apply, val_main_call4_v8_apply,
    val_main_call4_v7_apply, val_main_call4_cst_1_apply]
  have e : ∀ k : Fin 64, idx_main_call4_v7 (idx_main_call4_v8 (idx_main_call4_v10 (ix2 r j))) k = ix2 r k :=
    fun k => mk2 _ _ _ rfl rfl
  simp only [e, val_main_call4_v6_apply, shifted_rj]
  rw [Ideal.ofBits_def, Ideal.ofBits_zero_f32, zero_add]
  rfl

/-! ## The two results are the specification's arrays -/

/-- The reference's first result is the specification's selected-prediction array on the transposed weights. -/
theorem pred_eq (x0 : (⟨S131072x512, .f32⟩ : BufTy).Contents (Elt Ideal)) (x1 : (⟨S131072, .i32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x6 : (⟨S513x512, .f32⟩ : BufTy).Contents (Elt Ideal)) (x7 : (⟨S513, .f32⟩ : BufTy).Contents (Elt Ideal)) (x8 : (⟨S256x513, .f32⟩ : BufTy).Contents (Elt Ideal)) (x9 : (⟨S256, .f32⟩ : BufTy).Contents (Elt Ideal)) (x10 : (⟨S257x256, .f32⟩ : BufTy).Contents (Elt Ideal)) (x11 : (⟨S257, .f32⟩ : BufTy).Contents (Elt Ideal)) (x12 : (⟨S64x257, .f32⟩ : BufTy).Contents (Elt Ideal)) (x13 : (⟨S64, .f32⟩ : BufTy).Contents (Elt Ideal)) (x14 : (⟨S64x512, .f32⟩ : BufTy).Contents (Elt Ideal)) (x15 : (⟨S64, .f32⟩ : BufTy).Contents (Elt Ideal)) :
    Cert.ReferenceIdeal.ReadP.val_main_v31 (F := Ideal) x0 x1 x2 x3 x4 x5 x6 x7 x8 x9 x14 x15
      = Cert.Spec.predArr (Cert.Spec.weightsOf x2 x3 x4 x5 x6 x7 x8 x9 x10 x11 x12 x13 x14 x15) x0 x1 := by
  funext i
  obtain ⟨r, z, rfl⟩ : ∃ (r : Fin 131072) (z : Fin 1), i = ix2 r z := ⟨i 0, i 1, eq_ix2 i⟩
  rw [pred_r]
  simp only [heads_rj, mask_rj, rep_c, rep_o]
  rfl

/-- The reference's second result is the specification's log-propensity array on the transposed weights. -/
theorem prop_eq (x0 : (⟨S131072x512, .f32⟩ : BufTy).Contents (Elt Ideal)) (x1 : (⟨S131072, .i32⟩ : BufTy).Contents (Elt Ideal)) (x2 : (⟨S513x512, .f32⟩ : BufTy).Contents (Elt Ideal)) (x3 : (⟨S513, .f32⟩ : BufTy).Contents (Elt Ideal)) (x4 : (⟨S256x513, .f32⟩ : BufTy).Contents (Elt Ideal)) (x5 : (⟨S256, .f32⟩ : BufTy).Contents (Elt Ideal)) (x6 : (⟨S513x512, .f32⟩ : BufTy).Contents (Elt Ideal)) (x7 : (⟨S513, .f32⟩ : BufTy).Contents (Elt Ideal)) (x8 : (⟨S256x513, .f32⟩ : BufTy).Contents (Elt Ideal)) (x9 : (⟨S256, .f32⟩ : BufTy).Contents (Elt Ideal)) (x10 : (⟨S257x256, .f32⟩ : BufTy).Contents (Elt Ideal)) (x11 : (⟨S257, .f32⟩ : BufTy).Contents (Elt Ideal)) (x12 : (⟨S64x257, .f32⟩ : BufTy).Contents (Elt Ideal)) (x13 : (⟨S64, .f32⟩ : BufTy).Contents (Elt Ideal)) (x14 : (⟨S64x512, .f32⟩ : BufTy).Contents (Elt Ideal)) (x15 : (⟨S64, .f32⟩ : BufTy).Contents (Elt Ideal)) :
    Cert.ReferenceIdeal.ReadP.val_main_v43 (F := Ideal) x0 x2 x3 x4 x5 x10 x11 x12 x13
      = Cert.Spec.propArr (Cert.Spec.weightsOf x2 x3 x4 x5 x6 x7 x8 x9 x10 x11 x12 x13 x14 x15) x0 := by
  funext i
  obtain ⟨r, j, rfl⟩ : ∃ (r : Fin 131072) (j : Fin 64), i = ix2 r j := ⟨i 0, i 1, eq_ix2 i⟩
  rw [lsm_rj]
  simp only [logits_rj, rep_c]
  rfl

end Cert.RefIsSpec

end
-- ==== Proof.Bridge.lean ====
/-
  The reference's two float results are the kernel's: from memories that agree on the sixteen arguments, the reference's
  selected-prediction term and its log-propensity term are the specification's arrays of the reference's arguments,
  hence — the arguments being the same arrays — the arrays the kernel's call leaves.
-/
import proofs.«138805_j68719476736547_2_alg».proof.Proof.RefIsSpec
import proofs.«138805_j68719476736547_2_alg».proof.Proof.KernelArray

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's selected predictions are the kernel's prediction column. -/
theorem ref_pred
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.ValueP.res_main_v31 (F := Ideal) m' c = Cert.KernelValue.G17 m c := by
  unfold Cert.ReferenceIdeal.ValueP.res_main_v31
  refine ((Cert.ReferenceIdeal.ReadP.val_main_v31_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans
    (Cert.RefIsSpec.pred_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)))).trans ?_
  rw [h0, h1, h2, h3, h4, h5, h6, h7, h8, h9, h10, h11, h12, h13, h14, h15]
  rfl

/-- The reference's log-propensities are the kernel's log-propensity array. -/
theorem ref_prop
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.ValueP.res_main_v43 (F := Ideal) m' c = Cert.KernelValue.G18 m c := by
  refine ((Cert.ReferenceIdeal.ReadP.val_main_v43_eq (F := Ideal) m' c).trans
    (Cert.RefIsSpec.prop_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)))).trans ?_
  rw [h0, h2, h3, h4, h5, h6, h7, h8, h9, h10, h11, h12, h13, h14, h15]
  rfl

end Cert.Bridge

end
-- ==== Proof.lean ====
/-
  The kernel computes what its reference computes, on the extended reals.

  Both programs map a batch of 131072 rows x (512 confounders each) and an integer cause per row to
    · the selected prediction  Σ_j head_j(u, v)·[j = cause]  with u, v the outputs of two two-layer perceptrons with a
      rectifier, head_j(u, v) = Σ_k u_k·H[k, j] + Σ_k v_k·H[256 + k, j] + bh_j,
    · the log-propensity  log-softmax of a third perceptron applied to u,
    · the scalar zero, and the cause vector itself.
  The reference does this on whole arrays, contracting the concatenation (u, v) against the 512-row head matrix; the
  kernel works on 64 blocks of 2048 rows, each in four trips of 512 rows, and contracts u and v against the two halves
  of the head matrix separately. A sum over 512 places is the sum over its two halves in any commutative monoid, so no
  finiteness is needed anywhere: the precondition is never opened. Every change of float format is the identity on the
  extended reals, and the products into a zero accumulator, the lane sums and the host sums are plain finite sums.

  Modules: Spec (the row function), Weights (the transposed weights), PayIsSpec (the kernel body's arithmetic at an entry
  is the row function), KernelPieces / KernelWindows / KernelArray / KernelRun (the body's four stores tile a block; the
  blocks tile the arrays; the run), RefOps / RefTerms / RefRead / RefRun (the reference's run and its operations read at
  an index), RefIsSpec (the reference's terms are the row function), Bridge (the two meet).
-/
import proofs.«138805_j68719476736547_2_alg».proof.Defs
import proofs.«138805_j68719476736547_2_alg».proof.Proof.Gen.Kernel
import proofs.«138805_j68719476736547_2_alg».proof.Proof.Gen.Kernel.Frame
import proofs.«138805_j68719476736547_2_alg».proof.Proof.Gen.KernelIdeal
import proofs.«138805_j68719476736547_2_alg».proof.Proof.Gen.KernelIdeal.Frame
import proofs.«138805_j68719476736547_2_alg».proof.Proof.Gen.ReferenceIdeal
import proofs.«138805_j68719476736547_2_alg».proof.Proof.Gen.Pre_finite_inputs
import proofs.«138805_j68719476736547_2_alg».proof.Proof.KernelRun
import proofs.«138805_j68719476736547_2_alg».proof.Proof.RefRun
import proofs.«138805_j68719476736547_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.ValueP.run (F := Ideal) m ρ)

/-- From memories agreeing on the arguments both programs end with the same four results: the kernel's run leaves the
    specification's arrays of its arguments, the reference's run leaves its composed terms, which are the same arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelValue.G17 m c, fun c => Cert.KernelValue.G18 m c,
    fun _ => constant (F := Ideal) Cert.KernelIdeal.S_ .f32 0x00000000#32,
    fun c => m ((c.tc : Thread Cert.KernelIdeal.nD Cert.KernelIdeal.τ).loc Cert.KernelIdeal.main_arg1),
    Cert.KernelValue.run m ρ, ?_⟩
  refine (θ_run Cert.ReferenceIdeal.defs _ _).mono (fun _ h c => ?_) (Cert.ReferenceIdeal.ValueP.run (F := Ideal) m' ρ')
  obtain ⟨h0, h1, h2, h3, h4, h5, h6, h7, h8, h9, h10, h11, h12, h13, h14, h15⟩ := hagree c
  exact ⟨(h c).1.trans (Cert.Bridge.ref_pred m m' c h0 h1 h2 h3 h4 h5 h6 h7 h8 h9 h10 h11 h12 h13 h14 h15),
    (h c).2.1.trans (Cert.Bridge.ref_prop m m' c h0 h1 h2 h3 h4 h5 h6 h7 h8 h9 h10 h11 h12 h13 h14 h15),
    (h c).2.2.1, (h c).2.2.2.1.trans h1, (h c).2.2.2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
